-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768x384 : Shape := ⟨3, ![1, 768, 384]⟩
abbrev S1x768x3 : Shape := ⟨3, ![1, 768, 3]⟩
abbrev S1x768x768 : Shape := ⟨3, ![1, 768, 768]⟩
abbrev S128x384 : Shape := ⟨2, ![128, 384]⟩
abbrev S128 : Shape := ⟨1, ![128]⟩
abbrev S128x65 : Shape := ⟨2, ![128, 65]⟩
abbrev S128x1 : Shape := ⟨2, ![128, 1]⟩
abbrev S_ : Shape := ⟨0, ![]⟩

class Facts : Prop where
  bcast_S_S1x768x384 : S_.BroadcastsInDim S1x768x384 (![] : Fin 0 → Fin S1x768x384.rank)
  reducesTo_S1x768x384_S_d0_1_2 : S1x768x384.ReducesTo [0, 1, 2] S_
  h_S_ : 0 < S_.numel
  bcast_S_S1x768x3 : S_.BroadcastsInDim S1x768x3 (![] : Fin 0 → Fin S1x768x3.rank)
  reducesTo_S1x768x3_S_d0_1_2 : S1x768x3.ReducesTo [0, 1, 2] S_
  bcast_S_S1x768x768 : S_.BroadcastsInDim S1x768x768 (![] : Fin 0 → Fin S1x768x768.rank)
  reducesTo_S1x768x768_S_d0_1_2 : S1x768x768.ReducesTo [0, 1, 2] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x65 : S_.BroadcastsInDim S128x65 (![] : Fin 0 → Fin S128x65.rank)
  reducesTo_S128x65_S_d0_1 : S128x65.ReducesTo [0, 1] S_
  bcast_S_S128x1 : S_.BroadcastsInDim S128x1 (![] : Fin 0 → Fin S128x1.rank)
  reducesTo_S128x1_S_d0_1 : S128x1.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128x65 .f32) (main_arg8 : FVec F S128 .f32) (main_arg9 : FVec F S128x1 .f32) (main_arg10 : FVec F S128 .f32) (main_v33 : IVec S_ 1) : IVec S_ 1 :=
  let main_v34 : FVec F S128x65 .f32 := Host.absf main_arg7
  let main_cst_12 : FVec F S_ .f32 := constant S_ .f32 0x7F800000#32
  let main_v35 : FVec F S128x65 .f32 := broadcastInDim S128x65 ![] bcast_S_S128x65 main_cst_12
  let main_v36 : IVec S128x65 1 := cmpf .olt main_v34 main_v35
  let main_c_13 : IVec S_ 1 := constantI S_ 1 1#1
  let main_v37 : IVec S_ 1 := (fun x v => Host.reduce IntOp.andi x v reducesTo_S128x65_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x384 .f32) (main_arg6 : FVec F S128 .f32) (main_arg7 : FVec F S128x65 .f32) (main_arg8 : FVec F S128 .f32) (main_arg9 : FVec F S128x1 .f32) (main_arg10 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x384 .f32 := Host.absf main_arg5
  let main_cst_8 : FVec F S_ .f32 := constant S_ .f32 0x7F800000#32
  let main_v25 : FVec F S128x384 .f32 := broadcastInDim S128x384 ![] bcast_S_S128x384 main_cst_8
  let main_v26 : IVec S128x384 1 := cmpf .olt main_v24 main_v25
  let main_c_9 : IVec S_ 1 := constantI S_ 1 1#1
  let main_v27 : IVec S_ 1 := (fun x v => Host.reduce IntOp.andi x v reducesTo_S128x384_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x768x384 .f32) (main_arg1 : FVec F S1x768x3 .f32) (main_arg2 : FVec F S1x768x768 .f32) (main_arg3 : FVec F S128x384 .f32) (main_arg4 : FVec F S128 .f32) (main_arg5 : FVec F S128x384 .f32) (main_arg6 : FVec F S128 .f32) (main_arg7 : FVec F S128x65 .f32) (main_arg8 : FVec F S128 .f32) (main_arg9 : FVec F S128x1 .f32) (main_arg10 : FVec F S128 .f32) : IVec S_ 1 :=
  let main_v0 : FVec F S1x768x384 .f32 := Host.absf main_arg0
  let main_cst : FVec F S_ .f32 := constant S_ .f32 0x7F800000#32
  let main_v1 : FVec F S1x768x384 .f32 := broadcastInDim S1x768x384 ![] bcast_S_S1x768x384 main_cst
  let main_v2 : IVec S1x768x384 1 := cmpf .olt main_v0 main_v1
  let main_c : IVec S_ 1 := constantI S_ 1 1#1
  let main_v3 : IVec S_ 1 := (fun x v => Host.reduce IntOp.andi x v reducesTo_S1x768x384_S_d0_1_2 h_S_) main_v2 main_c
  let main_v4 : FVec F S1x768x3 .f32 := Host.absf main_arg1
  let main_cst_0 : FVec F S_ .f32 := constant S_ .f32 0x7F800000#32
  let main_v5 : FVec F S1x768x3 .f32 := broadcastInDim S1x768x3 ![] bcast_S_S1x768x3 main_cst_0
  let main_v6 : IVec S1x768x3 1 := cmpf .olt main_v4 main_v5
  let main_c_1 : IVec S_ 1 := constantI S_ 1 1#1
  let main_v7 : IVec S_ 1 := (fun x v => Host.reduce IntOp.andi x v reducesTo_S1x768x3_S_d0_1_2 h_S_) main_v6 main_c_1
  let main_v8 : IVec S_ 1 := andi main_v3 main_v7
  let main_v9 : FVec F S1x768x768 .f32 := Host.absf main_arg2
  let main_cst_2 : FVec F S_ .f32 := constant S_ .f32 0x7F800000#32
  let main_v10 : FVec F S1x768x768 .f32 := broadcastInDim S1x768x768 ![] bcast_S_S1x768x768 main_cst_2
  let main_v11 : IVec S1x768x768 1 := cmpf .olt main_v9 main_v10
  let main_c_3 : IVec S_ 1 := constantI S_ 1 1#1
  let main_v12 : IVec S_ 1 := (fun x v => Host.reduce IntOp.andi x v reducesTo_S1x768x768_S_d0_1_2 h_S_) main_v11 main_c_3
  let main_v13 : IVec S_ 1 := andi main_v8 main_v12
  let main_v14 : FVec F S128x384 .f32 := Host.absf main_arg3
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg5 main_arg6 main_arg7 main_arg8 main_arg9 main_arg10 main_v13 main_v16
-- ==== Kernel.lean ====
abbrev S1x768x384 : Shape := ⟨3, ![1, 768, 384]⟩
abbrev S1x768x3 : Shape := ⟨3, ![1, 768, 3]⟩
abbrev S1x768x768 : Shape := ⟨3, ![1, 768, 768]⟩
abbrev S128x384 : Shape := ⟨2, ![128, 384]⟩
abbrev S128 : Shape := ⟨1, ![128]⟩
abbrev S128x65 : Shape := ⟨2, ![128, 65]⟩
abbrev S128x1 : Shape := ⟨2, ![128, 1]⟩
abbrev S768x384 : Shape := ⟨2, ![768, 384]⟩
abbrev S768x128 : Shape := ⟨2, ![768, 128]⟩
abbrev S1x128 : Shape := ⟨2, ![1, 128]⟩
abbrev S65x128 : Shape := ⟨2, ![65, 128]⟩
abbrev S768x3 : Shape := ⟨2, ![768, 3]⟩
abbrev S3x768 : Shape := ⟨2, ![3, 768]⟩
abbrev S768x768 : Shape := ⟨2, ![768, 768]⟩
abbrev S768x768x128 : Shape := ⟨3, ![768, 768, 128]⟩
abbrev S128x128 : Shape := ⟨2, ![128, 128]⟩
abbrev S128x3 : Shape := ⟨2, ![128, 3]⟩
abbrev S3x128 : Shape := ⟨2, ![3, 128]⟩
abbrev S128x128x128 : Shape := ⟨3, ![128, 128, 128]⟩
abbrev S128x128x1 : Shape := ⟨3, ![128, 128, 1]⟩
abbrev S1x1x65 : Shape := ⟨3, ![1, 1, 65]⟩
abbrev S128x128x65 : Shape := ⟨3, ![128, 128, 65]⟩
abbrev S16384x65 : Shape := ⟨2, ![16384, 65]⟩
abbrev S16384x128 : Shape := ⟨2, ![16384, 128]⟩
abbrev S128x1x128 : Shape := ⟨3, ![128, 1, 128]⟩
abbrev S1x128x128 : Shape := ⟨3, ![1, 128, 128]⟩
abbrev S1x1x128 : Shape := ⟨3, ![1, 1, 128]⟩
abbrev S1x768x768x128 : Shape := ⟨4, ![1, 768, 768, 128]⟩

abbrev nBuf : Space → Nat
  | .hbm => 32
  | .vmem => 15
  | .smem => 0
  | _ => 0

abbrev bufTy : (tb : Table) → Fin (tcTables nBuf tb) → BufTy
  | .hbm, ⟨0, _⟩ => ⟨S1x768x384, .f32⟩
  | .hbm, ⟨1, _⟩ => ⟨S1x768x3, .f32⟩
  | .hbm, ⟨2, _⟩ => ⟨S1x768x768, .f32⟩
  | .hbm, ⟨3, _⟩ => ⟨S128x384, .f32⟩
  | .hbm, ⟨4, _⟩ => ⟨S128, .f32⟩
  | .hbm, ⟨5, _⟩ => ⟨S128x384, .f32⟩
  | .hbm, ⟨6, _⟩ => ⟨S128, .f32⟩
  | .hbm, ⟨7, _⟩ => ⟨S128x65, .f32⟩
  | .hbm, ⟨8, _⟩ => ⟨S128, .f32⟩
  | .hbm, ⟨9, _⟩ => ⟨S128x1, .f32⟩
  | .hbm, ⟨10, _⟩ => ⟨S128, .f32⟩
  | .hbm, ⟨11, _⟩ => ⟨S768x384, .f32⟩
  | .hbm, ⟨12, _⟩ => ⟨S768x128, .f32⟩
  | .hbm, ⟨13, _⟩ => ⟨S1x128, .f32⟩
  | .hbm, ⟨14, _⟩ => ⟨S768x128, .f32⟩
  | .hbm, ⟨15, _⟩ => ⟨S768x128, .f32⟩
  | .hbm, ⟨16, _⟩ => ⟨S768x128, .f32⟩
  | .hbm, ⟨17, _⟩ => ⟨S1x128, .f32⟩
  | .hbm, ⟨18, _⟩ => ⟨S768x128, .f32⟩
  | .hbm, ⟨19, _⟩ => ⟨S768x128, .f32⟩
  | .hbm, ⟨20, _⟩ => ⟨S65x128, .f32⟩
  | .hbm, ⟨21, _⟩ => ⟨S1x128, .f32⟩
  | .hbm, ⟨22, _⟩ => ⟨S65x128, .f32⟩
  | .hbm, ⟨23, _⟩ => ⟨S65x128, .f32⟩
  | .hbm, ⟨24, _⟩ => ⟨S128, .f32⟩
  | .hbm, ⟨25, _⟩ => ⟨S1x128, .f32⟩
  | .hbm, ⟨26, _⟩ => ⟨S1x128, .f32⟩
  | .hbm, ⟨27, _⟩ => ⟨S768x3, .f32⟩
  | .hbm, ⟨28, _⟩ => ⟨S3x768, .f32⟩
  | .hbm, ⟨29, _⟩ => ⟨S768x768, .f32⟩
  | .hbm, ⟨30, _⟩ => ⟨S768x768x128, .f32⟩
  | .hbm, ⟨31, _⟩ => ⟨S1x768x768x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x3, .f32⟩
  | .local _ .vmem, ⟨5, _⟩ => ⟨S128x3, .f32⟩
  | .local _ .vmem, ⟨6, _⟩ => ⟨S3x128, .f32⟩
  | .local _ .vmem, ⟨7, _⟩ => ⟨S3x128, .f32⟩
  | .local _ .vmem, ⟨8, _⟩ => ⟨S128x128, .f32⟩
  | .local _ .vmem, ⟨9, _⟩ => ⟨S128x128, .f32⟩
  | .local _ .vmem, ⟨10, _⟩ => ⟨S65x128, .f32⟩
  | .local _ .vmem, ⟨11, _⟩ => ⟨S1x128, .f32⟩
  | .local _ .vmem, ⟨12, _⟩ => ⟨S1x128, .f32⟩
  | .local _ .vmem, ⟨13, _⟩ => ⟨S128x128x128, .f32⟩
  | .local _ .vmem, ⟨14, _⟩ => ⟨S128x128x128, .f32⟩
  | _, _ => ⟨S1x768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S65x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S1x768x384_S768x384 : S1x768x384.ShapeCasts S768x384
  bcast_S128_S1x128_1 : S128.BroadcastsInDim S1x128 (![1] : Fin 1 → Fin S1x128.rank)
  bcast_S1x128_S768x128_0_1 : S1x128.BroadcastsInDim S768x128 (![0, 1] : Fin 2 → Fin S768x128.rank)
  transposes_S128x65_S65x128_1_0 : S128x65.Transposes [1, 0] S65x128
  bcast_S1x128_S65x128_0_1 : S1x128.BroadcastsInDim S65x128 (![0, 1] : Fin 2 → Fin S65x128.rank)
  shapeCasts_S128x1_S128 : S128x1.ShapeCasts S128
  shapeCasts_S1x768x3_S768x3 : S1x768x3.ShapeCasts S768x3
  transposes_S768x3_S3x768_1_0 : S768x3.Transposes [1, 0] S3x768
  shapeCasts_S1x768x768_S768x768 : S1x768x768.ShapeCasts S768x768
  iota_S128x128_d0_w32 : S128x128.Iotas .tc 32 [0]
  iota_S128x128_d1_w32 : S128x128.Iotas .tc 32 [1]
  shapeCasts_S128x128_S128x128x1 : S128x128.ShapeCasts S128x128x1
  iota_S1x1x65_d2_w32 : S1x1x65.Iotas .tc 32 [2]
  broadcasts_S128x128x1_S128x128x65 : S128x128x1.Broadcasts S128x128x65
  broadcasts_S1x1x65_S128x128x65 : S1x1x65.Broadcasts S128x128x65
  natLt_1_32 : 1 < 32
  bitsLt_bf16_f32 : FTy.bits .bf16 < FTy.bits .f32
  shapeCasts_S128x128x65_S16384x65 : S128x128x65.ShapeCasts S16384x65
  inb_S65x128_S65x128_0_0 : ∀ a, (![0, 0] : Fin 2 → Nat) a + S65x128.size a ≤ S65x128.size a
  h_S65x128 : 0 < S65x128.numel
  shapeCasts_S65x128_S65x128 : S65x128.ShapeCasts S65x128
  shapeCasts_S16384x128_S128x128x128 : S16384x128.ShapeCasts S128x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3x128_S3x128_0_0 : ∀ a, (![0, 0] : Fin 2 → Nat) a + S3x128.size a ≤ S3x128.size a
  h_S3x128 : 0 < S3x128.numel
  shapeCasts_S3x128_S3x128 : S3x128.ShapeCasts S3x128
  slices_S128x3_o0_0_S128x1 : S128x3.Slices ![0, 0] S128x1
  slices_S3x128_o0_0_S1x128 : S3x128.Slices ![0, 0] S1x128
  broadcasts_S128x1_S128x128 : S128x1.Broadcasts S128x128
  broadcasts_S1x128_S128x128 : S1x128.Broadcasts S128x128
  slices_S128x3_o0_1_S128x1 : S128x3.Slices ![0, 1] S128x1
  slices_S3x128_o1_0_S1x128 : S3x128.Slices ![1, 0] S1x128
  slices_S128x3_o0_2_S128x1 : S128x3.Slices ![0, 2] S128x1
  slices_S3x128_o2_0_S1x128 : S3x128.Slices ![2, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S128x128x1_S128x128x128 : S128x128x1.Broadcasts S128x128x128
  broadcasts_S1x1x128_S128x128x128 : S1x1x128.Broadcasts S128x128x128
  inb_S128x128x128_S128x128x128_0_0_0 : ∀ a, (![0, 0, 0] : Fin 3 → Nat) a + S128x128x128.size a ≤ S128x128x128.size a
  h_S128x128x128 : 0 < S128x128x128.numel
  bcast_S768x768x128_S1x768x768x128_1_2_3 : S768x768x128.BroadcastsInDim S1x768x768x128 (![1, 2, 3] : Fin 3 → Fin S1x768x768x128.rank)
  dot_S768x384_S128x384_S768x128_1_1_0_0_n_n_wf : DotDims.WF S768x384 S128x384 S768x128 [1] [1] [0] [0] [] []
  dot_S16384x65_S65x128_S16384x128_1_0_0_1_n_n_wf : DotDims.WF S16384x65 S65x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S768x128.size a
  hwx0_0 : ∀ i : grid0.Coords, EltTy.bits .f32 = 32 ∨ (Rect.block (s := S768x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S768x128.size a
  hwx0_1 : ∀ i : grid0.Coords, EltTy.bits .f32 = 32 ∨ (Rect.block (s := S768x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3.size a ≤ S768x3.size a
  hwx0_2 : ∀ i : grid0.Coords, EltTy.bits .f32 = 32 ∨ (Rect.block (s := S768x3) S128x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x768.size a
  hwx0_3 : ∀ i : grid0.Coords, EltTy.bits .f32 = 32 ∨ (Rect.block (s := S3x768) S3x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S768x768.size a
  hwx0_4 : ∀ i : grid0.Coords, EltTy.bits .f32 = 32 ∨ (Rect.block (s := S768x768) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S65x128.size a ≤ S65x128.size a
  hwx0_5 : ∀ i : grid0.Coords, EltTy.bits .f32 = 32 ∨ (Rect.block (s := S65x128) S65x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x128x128.size a ≤ S768x768x128.size a
  hwx0_8 : ∀ i : grid0.Coords, EltTy.bits .f32 = 32 ∨ (Rect.block (s := S768x768x128) S128x128x128.size (cc0_transform_8 i) (hinb0_8 i)).WholeWords (EltTy.packing .f32)

variable [Facts₀]

def dot_S768x384_S128x384_S768x128_1_1_0_0_n_n : DotDims S768x384 S128x384 S768x128 where
  lhsContracting := [1]
  rhsContracting := [1]
  lhsNonContracting := [0]
  rhsNonContracting := [0]
  lhsBatch := []
  rhsBatch := []
  wf := dot_S768x384_S128x384_S768x128_1_1_0_0_n_n_wf
def dot_S16384x65_S65x128_S16384x128_1_0_0_1_n_n : DotDims S16384x65 S65x128 S16384x128 where
  lhsContracting := [1]
  rhsContracting := [0]
  lhsNonContracting := [0]
  rhsNonContracting := [1]
  lhsBatch := []
  rhsBatch := []
  wf := dot_S16384x65_S65x128_S16384x128_1_0_0_1_n_n_wf

abbrev win0_0 : Pipeline.Window sig grid0 :=
  Pipeline.Window.ofSpec (Memref.whole main_v4) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S3x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S65x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S128x128x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1x768x384 : Shape := ⟨3, ![1, 768, 384]⟩
abbrev S1x768x3 : Shape := ⟨3, ![1, 768, 3]⟩
abbrev S1x768x768 : Shape := ⟨3, ![1, 768, 768]⟩
abbrev S128x384 : Shape := ⟨2, ![128, 384]⟩
abbrev S128 : Shape := ⟨1, ![128]⟩
abbrev S128x65 : Shape := ⟨2, ![128, 65]⟩
abbrev S128x1 : Shape := ⟨2, ![128, 1]⟩
abbrev S1x768x128 : Shape := ⟨3, ![1, 768, 128]⟩
abbrev S1x1x128 : Shape := ⟨3, ![1, 1, 128]⟩
abbrev S1x768x1x128 : Shape := ⟨4, ![1, 768, 1, 128]⟩
abbrev S1x1x768x128 : Shape := ⟨4, ![1, 1, 768, 128]⟩
abbrev S1x768x768x128 : Shape := ⟨4, ![1, 768, 768, 128]⟩
abbrev S768 : Shape := ⟨1, ![768]⟩
abbrev S768x1 : Shape := ⟨2, ![768, 1]⟩
abbrev S1x768 : Shape := ⟨2, ![1, 768]⟩
abbrev S768x768 : Shape := ⟨2, ![768, 768]⟩
abbrev S_ : Shape := ⟨0, ![]⟩
abbrev S65x128 : Shape := ⟨2, ![65, 128]⟩
abbrev S768x768x1 : Shape := ⟨3, ![768, 768, 1]⟩
abbrev S1 : Shape := ⟨1, ![1]⟩
abbrev S1x1x1 : Shape := ⟨3, ![1, 1, 1]⟩
abbrev S768x768x128 : Shape := ⟨3, ![768, 768, 128]⟩
abbrev S1x768x1x3 : Shape := ⟨4, ![1, 768, 1, 3]⟩
abbrev S1x1x768x3 : Shape := ⟨4, ![1, 1, 768, 3]⟩
abbrev S1x768x768x3 : Shape := ⟨4, ![1, 768, 768, 3]⟩
abbrev S1x768x768x1 : Shape := ⟨4, ![1, 768, 768, 1]⟩
abbrev S1x1x1x128 : Shape := ⟨4, ![1, 1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S1x768x384, .f32⟩
  | .hbm, ⟨1, _⟩ => ⟨S1x768x3, .f32⟩
  | .hbm, ⟨2, _⟩ => ⟨S1x768x768, .f32⟩
  | .hbm, ⟨3, _⟩ => ⟨S128x384, .f32⟩
  | .hbm, ⟨4, _⟩ => ⟨S128, .f32⟩
  | .hbm, ⟨5, _⟩ => ⟨S128x384, .f32⟩
  | .hbm, ⟨6, _⟩ => ⟨S128, .f32⟩
  | .hbm, ⟨7, _⟩ => ⟨S128x65, .f32⟩
  | .hbm, ⟨8, _⟩ => ⟨S128, .f32⟩
  | .hbm, ⟨9, _⟩ => ⟨S128x1, .f32⟩
  | .hbm, ⟨10, _⟩ => ⟨S128, .f32⟩
  | .hbm, ⟨11, _⟩ => ⟨S1x768x128, .f32⟩
  | .hbm, ⟨12, _⟩ => ⟨S1x1x128, .f32⟩
  | .hbm, ⟨13, _⟩ => ⟨S1x768x128, .f32⟩
  | .hbm, ⟨14, _⟩ => ⟨S1x768x128, .f32⟩
  | .hbm, ⟨15, _⟩ => ⟨S1x768x128, .f32⟩
  | .hbm, ⟨16, _⟩ => ⟨S1x1x128, .f32⟩
  | .hbm, ⟨17, _⟩ => ⟨S1x768x128, .f32⟩
  | .hbm, ⟨18, _⟩ => ⟨S1x768x128, .f32⟩
  | .hbm, ⟨19, _⟩ => ⟨S1x768x1x128, .f32⟩
  | .hbm, ⟨20, _⟩ => ⟨S1x1x768x128, .f32⟩
  | .hbm, ⟨21, _⟩ => ⟨S1x768x768x128, .f32⟩
  | .hbm, ⟨22, _⟩ => ⟨S1x768x768x128, .f32⟩
  | .hbm, ⟨23, _⟩ => ⟨S1x768x768x128, .f32⟩
  | .hbm, ⟨24, _⟩ => ⟨S768, .i32⟩
  | .hbm, ⟨25, _⟩ => ⟨S768x1, .i32⟩
  | .hbm, ⟨26, _⟩ => ⟨S1x768, .i32⟩
  | .hbm, ⟨27, _⟩ => ⟨S768x768, .i32⟩
  | .hbm, ⟨28, _⟩ => ⟨S768x768, .i32⟩
  | .hbm, ⟨29, _⟩ => ⟨S768x768, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S768x768, .i32⟩
  | .hbm, ⟨34, _⟩ => ⟨S768x768, .i32⟩
  | .hbm, ⟨35, _⟩ => ⟨S_, .i32⟩
  | .hbm, ⟨36, _⟩ => ⟨S768x768, .i32⟩
  | .hbm, ⟨37, _⟩ => ⟨S768x768, .i32⟩
  | .hbm, ⟨38, _⟩ => ⟨S_, .i32⟩
  | .hbm, ⟨39, _⟩ => ⟨S768x768, .i32⟩
  | .hbm, ⟨40, _⟩ => ⟨S768x768, .i32⟩
  | .hbm, ⟨41, _⟩ => ⟨S65x128, .f32⟩
  | .hbm, ⟨42, _⟩ => ⟨S_, .i32⟩
  | .hbm, ⟨43, _⟩ => ⟨S768x768, .i32⟩
  | .hbm, ⟨44, _⟩ => ⟨S768x768, .i1⟩
  | .hbm, ⟨45, _⟩ => ⟨S_, .i32⟩
  | .hbm, ⟨46, _⟩ => ⟨S768x768, .i32⟩
  | .hbm, ⟨47, _⟩ => ⟨S768x768, .i32⟩
  | .hbm, ⟨48, _⟩ => ⟨S768x768, .i32⟩
  | .hbm, ⟨49, _⟩ => ⟨S768x768x1, .i32⟩
  | .hbm, ⟨50, _⟩ => ⟨S1, .i32⟩
  | .hbm, ⟨51, _⟩ => ⟨S_, .i32⟩
  | .hbm, ⟨52, _⟩ => ⟨S768x768x1, .i32⟩
  | .hbm, ⟨53, _⟩ => ⟨S768x768x1, .i1⟩
  | .hbm, ⟨54, _⟩ => ⟨S1x1x1, .i32⟩
  | .hbm, ⟨55, _⟩ => ⟨S768x768x1, .i32⟩
  | .hbm, ⟨56, _⟩ => ⟨S768x768x1, .i1⟩
  | .hbm, ⟨57, _⟩ => ⟨S768x768x1, .i1⟩
  | .hbm, ⟨58, _⟩ => ⟨S_, .i1⟩
  | .hbm, ⟨59, _⟩ => ⟨S768x768, .i1⟩
  | .hbm, ⟨60, _⟩ => ⟨S768x768x128, .f32⟩
  | .hbm, ⟨61, _⟩ => ⟨S768x768x128, .i1⟩
  | .hbm, ⟨62, _⟩ => ⟨S_, .f32⟩
  | .hbm, ⟨63, _⟩ => ⟨S768x768x128, .f32⟩
  | .hbm, ⟨64, _⟩ => ⟨S768x768x128, .f32⟩
  | .hbm, ⟨65, _⟩ => ⟨S1x1x128, .f32⟩
  | .hbm, ⟨66, _⟩ => ⟨S768x768x128, .f32⟩
  | .hbm, ⟨67, _⟩ => ⟨S768x768x128, .f32⟩
  | .hbm, ⟨68, _⟩ => ⟨S1x768x768x128, .f32⟩
  | .hbm, ⟨69, _⟩ => ⟨S1x768x768x128, .f32⟩
  | .hbm, ⟨70, _⟩ => ⟨S1x768x1x3, .f32⟩
  | .hbm, ⟨71, _⟩ => ⟨S1x1x768x3, .f32⟩
  | .hbm, ⟨72, _⟩ => ⟨S1x768x768x3, .f32⟩
  | .hbm, ⟨73, _⟩ => ⟨S1x768x768x3, .f32⟩
  | .hbm, ⟨74, _⟩ => ⟨S1x768x768x3, .f32⟩
  | .hbm, ⟨75, _⟩ => ⟨S1x768x768x3, .f32⟩
  | .hbm, ⟨76, _⟩ => ⟨S_, .f32⟩
  | .hbm, ⟨77, _⟩ => ⟨S1x768x768, .f32⟩
  | .hbm, ⟨78, _⟩ => ⟨S_, .f32⟩
  | .hbm, ⟨79, _⟩ => ⟨S1x768x768, .f32⟩
  | .hbm, ⟨80, _⟩ => ⟨S1x768x768, .f32⟩
  | .hbm, ⟨81, _⟩ => ⟨S1x768x768, .f32⟩
  | .hbm, ⟨82, _⟩ => ⟨S1x768x768x1, .f32⟩
  | .hbm, ⟨83, _⟩ => ⟨S128, .f32⟩
  | .hbm, ⟨84, _⟩ => ⟨S1x1x1x128, .f32⟩
  | .hbm, ⟨85, _⟩ => ⟨S1x768x768x128, .f32⟩
  | .hbm, ⟨86, _⟩ => ⟨S1x768x768x128, .f32⟩
  | .hbm, ⟨87, _⟩ => ⟨S1x768x768x128, .f32⟩
  | .hbm, ⟨88, _⟩ => ⟨S1x768x768x128, .f32⟩
  | .hbm, ⟨89, _⟩ => ⟨S1x1x1x128, .f32⟩
  | .hbm, ⟨90, _⟩ => ⟨S1x768x768x128, .f32⟩
  | .hbm, ⟨91, _⟩ => ⟨S1x768x768x128, .f32⟩
  | .hbm, ⟨92, _⟩ => ⟨S1x768x768x1, .f32⟩
  | .hbm, ⟨93, _⟩ => ⟨S1x768x768x128, .f32⟩
  | .hbm, ⟨94, _⟩ => ⟨S1x768x768x128, .f32⟩
  | _, _ => ⟨S1x768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_c_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst : Ref sig .tc := ⟨.hbm, 76, rfl⟩
abbrev main_v35 : Ref sig .tc := ⟨.hbm, 77, rfl⟩
abbrev main_cst_2 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x768x128_0_1_2 : S1x1x128.BroadcastsInDim S1x768x128 (![0, 1, 2] : Fin 3 → Fin S1x768x128.rank)
  bcast_S1x768x128_S1x768x1x128_0_1_3 : S1x768x128.BroadcastsInDim S1x768x1x128 (![0, 1, 3] : Fin 3 → Fin S1x768x1x128.rank)
  bcast_S1x768x128_S1x1x768x128_0_2_3 : S1x768x128.BroadcastsInDim S1x1x768x128 (![0, 2, 3] : Fin 3 → Fin S1x1x768x128.rank)
  bcast_S1x768x1x128_S1x768x768x128_0_1_2_3 : S1x768x1x128.BroadcastsInDim S1x768x768x128 (![0, 1, 2, 3] : Fin 4 → Fin S1x768x768x128.rank)
  bcast_S1x1x768x128_S1x768x768x128_0_1_2_3 : S1x1x768x128.BroadcastsInDim S1x768x768x128 (![0, 1, 2, 3] : Fin 4 → Fin S1x768x768x128.rank)
  bcast_S768_S768x1_0 : S768.BroadcastsInDim S768x1 (![0] : Fin 1 → Fin S768x1.rank)
  bcast_S768_S1x768_1 : S768.BroadcastsInDim S1x768 (![1] : Fin 1 → Fin S1x768.rank)
  bcast_S768x1_S768x768_0_1 : S768x1.BroadcastsInDim S768x768 (![0, 1] : Fin 2 → Fin S768x768.rank)
  bcast_S1x768_S768x768_0_1 : S1x768.BroadcastsInDim S768x768 (![0, 1] : Fin 2 → Fin S768x768.rank)
  bcast_S_S768x768 : S_.BroadcastsInDim S768x768 (![] : Fin 0 → Fin S768x768.rank)
  transposes_S128x65_S65x128_1_0 : S128x65.Transposes [1, 0] S65x128
  bcast_S768x768_S768x768x1_0_1 : S768x768.BroadcastsInDim S768x768x1 (![0, 1] : Fin 2 → Fin S768x768x1.rank)
  bcast_S_S768x768x1 : S_.BroadcastsInDim S768x768x1 (![] : Fin 0 → Fin S768x768x1.rank)
  bcast_S1_S1x1x1_2 : S1.BroadcastsInDim S1x1x1 (![2] : Fin 1 → Fin S1x1x1.rank)
  bcast_S1x1x1_S768x768x1_0_1_2 : S1x1x1.BroadcastsInDim S768x768x1 (![0, 1, 2] : Fin 3 → Fin S768x768x1.rank)
  reducesTo_S768x768x1_S768x768_d2 : S768x768x1.ReducesTo [2] S768x768
  h_S_ : 0 < S_.numel
  bcast_S768x768_S768x768x128_0_1 : S768x768.BroadcastsInDim S768x768x128 (![0, 1] : Fin 2 → Fin S768x768x128.rank)
  bcast_S_S768x768x128 : S_.BroadcastsInDim S768x768x128 (![] : Fin 0 → Fin S768x768x128.rank)
  bcast_S1x1x128_S768x768x128_0_1_2 : S1x1x128.BroadcastsInDim S768x768x128 (![0, 1, 2] : Fin 3 → Fin S768x768x128.rank)
  bcast_S768x768x128_S1x768x768x128_1_2_3 : S768x768x128.BroadcastsInDim S1x768x768x128 (![1, 2, 3] : Fin 3 → Fin S1x768x768x128.rank)
  bcast_S1x768x3_S1x768x1x3_0_1_3 : S1x768x3.BroadcastsInDim S1x768x1x3 (![0, 1, 3] : Fin 3 → Fin S1x768x1x3.rank)
  bcast_S1x768x3_S1x1x768x3_0_2_3 : S1x768x3.BroadcastsInDim S1x1x768x3 (![0, 2, 3] : Fin 3 → Fin S1x1x768x3.rank)
  bcast_S1x768x1x3_S1x768x768x3_0_1_2_3 : S1x768x1x3.BroadcastsInDim S1x768x768x3 (![0, 1, 2, 3] : Fin 4 → Fin S1x768x768x3.rank)
  bcast_S1x1x768x3_S1x768x768x3_0_1_2_3 : S1x1x768x3.BroadcastsInDim S1x768x768x3 (![0, 1, 2, 3] : Fin 4 → Fin S1x768x768x3.rank)
  reducesTo_S1x768x768x3_S1x768x768_d3 : S1x768x768x3.ReducesTo [3] S1x768x768
  bcast_S_S1x768x768 : S_.BroadcastsInDim S1x768x768 (![] : Fin 0 → Fin S1x768x768.rank)
  bcast_S1x768x768_S1x768x768x1_0_1_2 : S1x768x768.BroadcastsInDim S1x768x768x1 (![0, 1, 2] : Fin 3 → Fin S1x768x768x1.rank)
  shapeCasts_S128x1_S128 : S128x1.ShapeCasts S128
  bcast_S128_S1x1x1x128_3 : S128.BroadcastsInDim S1x1x1x128 (![3] : Fin 1 → Fin S1x1x1x128.rank)
  bcast_S1x768x768x1_S1x768x768x128_0_1_2_3 : S1x768x768x1.BroadcastsInDim S1x768x768x128 (![0, 1, 2, 3] : Fin 4 → Fin S1x768x768x128.rank)
  bcast_S1x1x1x128_S1x768x768x128_0_1_2_3 : S1x1x1x128.BroadcastsInDim S1x768x768x128 (![0, 1, 2, 3] : Fin 4 → Fin S1x768x768x128.rank)
  dot_S1x768x384_S128x384_S1x768x128_2_1_01_0_n_n_wf : DotDims.WF S1x768x384 S128x384 S1x768x128 [2] [1] [0, 1] [0] [] []
  gather_S65x128_S768x768x1_S768x768x128_2_0_n_n_0_2_1128_wf : GatherDims.WF S65x128 S768x768x1 S768x768x128 [2] [0] [] [0] [] 2 ![1, 128]

variable [Facts₀]

def dot_S1x768x384_S128x384_S1x768x128_2_1_01_0_n_n : DotDims S1x768x384 S128x384 S1x768x128 where
  lhsContracting := [2]
  rhsContracting := [1]
  lhsNonContracting := [0, 1]
  rhsNonContracting := [0]
  lhsBatch := []
  rhsBatch := []
  wf := dot_S1x768x384_S128x384_S1x768x128_2_1_01_0_n_n_wf
def gather_S65x128_S768x768x1_S768x768x128_2_0_n_n_0_2_1128 : GatherDims S65x128 S768x768x1 S768x768x128 where
  offsetDims := [2]
  collapsedSliceDims := [0]
  operandBatchingDims := []
  startIndicesBatchingDims := []
  startIndexMap := [0]
  indexVectorDim := 2
  sliceSizes := ![1, 128]
  wf := gather_S65x128_S768x768x1_S768x768x128_2_0_n_n_0_2_1128_wf

class Facts : Prop extends Facts₀ where

variable [Facts]
-- ==== Proof.Spec.lean ====
/-
  The specification both programs meet at the extended reals.

  For a residue pair (r, c) of the 768 positions and a channel p of the 128, the result is

      ((((P_i r p + P_j c p) + (W_rel p (bin r c) + b_rel p)) + sqrt (eps + |t_r - t_c|^2) * W_t p) + b_t p) * mask r c

  where P_i r p = (sum over the 384 features k of s r k * W_i p k) + b_i p (and P_j likewise), bin r c is the
  relative position r - c clipped to [-32, 32] and shifted to [0, 64], |t_r - t_c|^2 is the sum over the three
  coordinates of the squared differences of the translations, and eps is the single-precision word nearest 1e-10,
  kept as its word (the same word on both sides, never evaluated). The grouping of the sums and the order of every
  product are the ones both printed programs use, so that neither side needs an algebraic law beyond reading its
  own operations at an index, except for how each of them forms the three-term sum and finds row bin r c of the
  relative-position table.
-/
import Idealize.ShloMosaic.PureOps.Ideal
import Idealize.ShloMosaic.Lib.ValueIdx

noncomputable section

namespace Cert.PairSpec

open Idealize.ShloMosaic Idealize.ShloMosaic.ValueIdx

/-- The relative position r - c clipped to [-32, 32] and shifted by 32: a natural number below 65. -/
def binNat (r c : Nat) : Nat := (max (-32) (min 32 ((r : Int) - (c : Int))) + 32).toNat

theorem binNat_lt (r c : Nat) : binNat r c < 65 := by
  unfold binNat; omega

/-- As an integer it is the clipped difference plus 32 (no truncation happens: the clipped value is at least -32). -/
theorem binNat_cast (r c : Nat) : ((binNat r c : Nat) : Int) = max (-32) (min 32 ((r : Int) - (c : Int))) + 32 := by
  unfold binNat; omega

/-- The relative-position bin of a pair of positions, as a row of the 65-row table. -/
def bin (r c : Fin 768) : Fin 65 := ⟨binNat r.val c.val, binNat_lt _ _⟩

abbrev Arr (s : Shape) : Type := s.Idx → EReal

/-- A linear projection of position n's features onto channel p, plus its bias. -/
def proj (s : Arr ⟨3, ![1, 768, 384]⟩) (W : Arr ⟨2, ![128, 384]⟩) (b : Arr ⟨1, ![128]⟩) (n : Fin 768) (p : Fin 128) : EReal :=
  (∑ k : Fin 384, s (ix3 (0 : Fin 1) n k) * W (ix2 p k)) + b (ix1 p)

/-- The squared distance between the translations of positions r and c: the three squared coordinate differences. -/
def dist2 (tr : Arr ⟨3, ![1, 768, 3]⟩) (r c : Fin 768) : EReal :=
  ∑ k : Fin 3, (tr (ix3 (0 : Fin 1) r k) - tr (ix3 (0 : Fin 1) c k)) * (tr (ix3 (0 : Fin 1) r k) - tr (ix3 (0 : Fin 1) c k))

/-- The pair feature of positions (r, c) at channel p. -/
def entry (s : Arr ⟨3, ![1, 768, 384]⟩) (tr : Arr ⟨3, ![1, 768, 3]⟩) (pm : Arr ⟨3, ![1, 768, 768]⟩)
    (Wi : Arr ⟨2, ![128, 384]⟩) (bi : Arr ⟨1, ![128]⟩) (Wj : Arr ⟨2, ![128, 384]⟩) (bj : Arr ⟨1, ![128]⟩)
    (Wrel : Arr ⟨2, ![128, 65]⟩) (brel : Arr ⟨1, ![128]⟩) (Wt : Arr ⟨2, ![128, 1]⟩) (bt : Arr ⟨1, ![128]⟩)
    (r c : Fin 768) (p : Fin 128) : EReal :=
  ((((proj s Wi bi r p + proj s Wj bj c p) + (Wrel (ix2 p (bin r c)) + brel (ix1 p)))
      + Ideal.sqrt (Ideal.ofBits .f32 0x2EDBE6FF#32 + dist2 tr r c) * Wt (ix2 p (0 : Fin 1))) + bt (ix1 p))
    * pm (ix3 (0 : Fin 1) r c)

/-- The whole result array [1, 768, 768, 128] as one function of the eleven argument arrays. -/
def G (s : Arr ⟨3, ![1, 768, 384]⟩) (tr : Arr ⟨3, ![1, 768, 3]⟩) (pm : Arr ⟨3, ![1, 768, 768]⟩)
    (Wi : Arr ⟨2, ![128, 384]⟩) (bi : Arr ⟨1, ![128]⟩) (Wj : Arr ⟨2, ![128, 384]⟩) (bj : Arr ⟨1, ![128]⟩)
    (Wrel : Arr ⟨2, ![128, 65]⟩) (brel : Arr ⟨1, ![128]⟩) (Wt : Arr ⟨2, ![128, 1]⟩) (bt : Arr ⟨1, ![128]⟩) :
    Arr ⟨4, ![1, 768, 768, 128]⟩ :=
  fun j => entry s tr pm Wi bi Wj bj Wrel brel Wt bt (j 1) (j 2) (j 3)

theorem G_apply (s : Arr ⟨3, ![1, 768, 384]⟩) (tr : Arr ⟨3, ![1, 768, 3]⟩) (pm : Arr ⟨3, ![1, 768, 768]⟩)
    (Wi : Arr ⟨2, ![128, 384]⟩) (bi : Arr ⟨1, ![128]⟩) (Wj : Arr ⟨2, ![128, 384]⟩) (bj : Arr ⟨1, ![128]⟩)
    (Wrel : Arr ⟨2, ![128, 65]⟩) (brel : Arr ⟨1, ![128]⟩) (Wt : Arr ⟨2, ![128, 1]⟩) (bt : Arr ⟨1, ![128]⟩)
    (u : Fin 1) (r c : Fin 768) (p : Fin 128) :
    G s tr pm Wi bi Wj bj Wrel brel Wt bt (ix4 u r c p) = entry s tr pm Wi bi Wj bj Wrel brel Wt bt r c p := rfl

end Cert.PairSpec

end
-- ==== Proof.BinBits.lean ====
/-
  The relative-position bin as a 32-bit word, and the one-hot row it selects.

  Both programs compute the bin of a pair of positions (R, C), each below 768, in 32-bit two's-complement words:
  the difference R - C (never wrapping: it lies within ±767), its signed maximum with -32, the signed minimum of
  that with 32, plus 32. Read signed, every intermediate word is the integer it should be, so the result is the word
  of the natural number binNat R C, which is below 65. A word compare of that bin against k < 65, widened and read
  as a float, is the real 1 when the bin is k and the real 0 otherwise; and a sum over the 65 rows k of that 0/1
  factor times a row's entry keeps exactly the entry of row bin (0 times anything is 0 on the extended reals, the
  infinities included, so no finiteness is needed).
-/
import Idealize.ShloMosaic.PureOps.Ideal
import Idealize.ShloMosaic.PureOps.Ideal.Laws
import proofs.«127354_j12618613915748_2_alg».proof.Proof.Spec

noncomputable section

namespace Cert.PairSpec

open Idealize.ShloMosaic

/-- A natural number below 2^31, as a 32-bit word read signed, is itself. -/
theorem toInt_ofNat32 (n : Nat) (h : n < 2147483648) : (BitVec.ofNat 32 n).toInt = (n : Int) := by
  have h1 : (BitVec.ofNat 32 n).toNat = n := by rw [BitVec.toNat_ofNat]; omega
  rw [BitVec.toInt_eq_toNat_cond, h1]
  split <;> omega

/-- Clip to [-32, 32] and shift by 32, on a word whose signed reading is a small integer d. -/
theorem clip_word_toInt (x : BitVec 32) (d : Int) (hx : x.toInt = d) (hd : -1000 ≤ d ∧ d ≤ 1000) :
    (IntOp.addi (IntOp.minsi 32#32 (IntOp.maxsi 4294967264#32 x)) 32#32).toInt = max (-32) (min 32 d) + 32 := by
  have hm32 : (4294967264#32 : BitVec 32).toInt = -32 := by decide
  have h32 : (32#32 : BitVec 32).toInt = 32 := by decide
  unfold IntOp.addi IntOp.minsi IntOp.maxsi
  by_cases h1 : x.slt 4294967264#32 = true
  · rw [if_pos h1]
    have h1' := BitVec.slt_iff_toInt_lt.mp h1
    rw [hm32, hx] at h1'
    by_cases h2 : (32#32 : BitVec 32).slt 4294967264#32 = true
    · have := BitVec.slt_iff_toInt_lt.mp h2
      rw [h32, hm32] at this
      omega
    · rw [if_neg h2, BitVec.toInt_add, hm32, h32, Int.bmod_def]
      omega
  · rw [if_neg h1]
    have h1' : ¬ d < -32 := fun h => h1 (BitVec.slt_iff_toInt_lt.mpr (by rw [hm32, hx]; exact h))
    by_cases h2 : (32#32 : BitVec 32).slt x = true
    · rw [if_pos h2, BitVec.toInt_add, h32, Int.bmod_def]
      have := BitVec.slt_iff_toInt_lt.mp h2
      rw [h32, hx] at this
      omega
    · rw [if_neg h2, BitVec.toInt_add, h32, hx, Int.bmod_def]
      have : ¬ (32 : Int) < d := fun h => h2 (BitVec.slt_iff_toInt_lt.mpr (by rw [h32, hx]; exact h))
      omega

/-- The bin of positions (R, C) as both programs compute it in words is the word of binNat R C. -/
theorem bin_word (R C : Nat) (hR : R < 768) (hC : C < 768) :
    IntOp.addi (IntOp.minsi 32#32 (IntOp.maxsi 4294967264#32 (IntOp.subi (BitVec.ofNat 32 R) (BitVec.ofNat 32 C)))) 32#32
      = BitVec.ofNat 32 (binNat R C) := by
  apply BitVec.eq_of_toInt_eq
  have hb := binNat_lt R C
  have hd : (IntOp.subi (BitVec.ofNat 32 R) (BitVec.ofNat 32 C)).toInt = (R : Int) - (C : Int) := by
    unfold IntOp.subi
    rw [BitVec.toInt_sub, toInt_ofNat32 R (by omega), toInt_ofNat32 C (by omega), Int.bmod_def]
    omega
  rw [clip_word_toInt _ _ hd (by omega), toInt_ofNat32 _ (by omega), binNat_cast]

/-- Block index I times the block height 128 plus the row inside the block, in words, is the word of the global row. -/
theorem row_word (I a : Nat) :
    IntOp.addi (Scalar.muli (BitVec.ofNat 32 I) 128#32) (BitVec.ofNat 32 a) = BitVec.ofNat 32 (I * 128 + a) := by
  unfold IntOp.addi Scalar.muli IntOp.muli
  rw [BitVec.ofNat_add, BitVec.ofNat_mul]

/-- Two naturals below 65 have equal 32-bit words only if they are equal. -/
theorem ofNat32_inj_small (n k : Nat) (hn : n < 65) (hk : k < 65) (h : BitVec.ofNat 32 n = BitVec.ofNat 32 k) : n = k := by
  have := congrArg BitVec.toNat h
  rw [BitVec.toNat_ofNat, BitVec.toNat_ofNat] at this
  omega

/-- The word compare of a bin against a row number, widened to 32 bits and read as a float at the extended reals:
    1 when they agree, 0 otherwise. -/
theorem onehot_real (n k : Nat) (hn : n < 65) (hk : k < 65) :
    (FloatOps.sitofp (F := Ideal) .f32 ((IntOp.cmpi .eq (BitVec.ofNat 32 n) (BitVec.ofNat 32 k)).setWidth 32) : EReal)
      = if n = k then 1 else 0 := by
  show (((((IntOp.cmpi .eq (BitVec.ofNat 32 n) (BitVec.ofNat 32 k)).setWidth 32).toInt : ℝ)) : EReal) = _
  unfold IntOp.cmpi
  by_cases h : n = k
  · subst h
    rw [if_pos rfl]
    have e : (BitVec.ofNat 32 n == BitVec.ofNat 32 n) = true := by simp
    show ((((BitVec.ofBool (BitVec.ofNat 32 n == BitVec.ofNat 32 n)).setWidth 32).toInt : ℝ) : EReal) = 1
    rw [e]
    have : ((BitVec.ofBool true).setWidth 32).toInt = 1 := by decide
    rw [this]
    norm_num
  · rw [if_neg h]
    have e : (BitVec.ofNat 32 n == BitVec.ofNat 32 k) = false := by
      rw [beq_eq_false_iff_ne]
      exact fun hh => h (ofNat32_inj_small n k hn hk hh)
    show ((((BitVec.ofBool (BitVec.ofNat 32 n == BitVec.ofNat 32 k)).setWidth 32).toInt : ℝ) : EReal) = 0
    rw [e]
    have : ((BitVec.ofBool false).setWidth 32).toInt = 0 := by decide
    rw [this]
    norm_num

/-- A sum over the 65 rows of the 0/1 factor of row n times the row's entry is the entry of row n. -/
theorem onehot_sum (n : Fin 65) (f : Fin 65 → EReal) :
    (∑ k : Fin 65, (if n.val = k.val then (1 : EReal) else 0) * f k) = f n := by
  rw [Finset.sum_eq_single n]
  · rw [if_pos rfl, one_mul]
  · intro k _ hk
    rw [if_neg (fun h => hk (Fin.ext h.symm)), zero_mul]
  · intro h
    exact absurd (Finset.mem_univ n) h

end Cert.PairSpec

end
-- ==== Proof.LibLayout3.lean ====
/-
  Layout operations of rank-3 blocks read at an index given by coordinates.

  A vector operation that only re-lays a block — a shape cast that inserts a unit axis or flattens two axes into one,
  a broadcast along a unit axis — reads, at an index, its operand at the index with the same row-major position
  (a cast) or with 0 on the broadcast axes (a broadcast). Here that is spelled out, for indices written by their
  coordinates, for the re-layings a pairwise kernel needs: a matrix [a,b] viewed [a,1,b], [1,a,b] or [a,b,1]; a row
  [1,b] viewed [1,1,b]; the flattening [a,b,c] to [a*b,c] and back; and the broadcasts of [a,1,c], [1,b,c], [a,b,1]
  and [1,1,c] to [a,b,c], and of a column [a,1] to [a,b]. General in the extents and in the element type.
-/
import Idealize.ShloMosaic.Lib.Pipeline.Value
import Idealize.ShloMosaic.Lib.ValueIdx
import Idealize.ShloMosaic.Lib.ValueLayout

namespace LibLayout3

open Idealize.ShloMosaic Idealize.ShloMosaic.ValueIdx

variable {α : Type}

/-! ## Shape casts -/

/-- A matrix [a,b] viewed [a,1,b] reads, at (i, u, j), the matrix at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A matrix [a,b] viewed [a,b,1] reads, at (i, j, u), the matrix at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A block [n,c] with n = a*b viewed [a,b,c] reads, at (i, j, k), the block at row i*b + j, column k. -/
theorem shapeCast_nc_abc_apply {n a b c : ℕ} (x : (⟨2, ![n, c]⟩ : Shape).Idx → α)
    (h : (⟨2, ![n, c]⟩ : Shape).ShapeCasts ⟨3, ![a, b, c]⟩) (i : Fin a) (j : Fin b) (k : Fin c) (q : Fin n)
    (hq : q.val = i.val * b + j.val) :
    shapeCast ⟨3, ![a, b, c]⟩ x h (ix3 i j k) = x (ix2 q k) :=
  shapeCast_apply x h _ _ (by
    rw [Shape.rowMajor_val_three, Shape.rowMajor_val_two]
    show q.val * c + k.val = (i.val * b + j.val) * c + k.val
    rw [hq])

/-- A block [a,b,c] viewed [n,c] with n = a*b reads, at row i*b + j and column k, the block at (i, j, k). -/
theorem shapeCast_abc_nc_apply {n a b c : ℕ} (x : (⟨3, ![a, b, c]⟩ : Shape).Idx → α)
    (h : (⟨3, ![a, b, c]⟩ : Shape).ShapeCasts ⟨2, ![n, c]⟩) (i : Fin a) (j : Fin b) (k : Fin c) (q : Fin n)
    (hq : q.val = i.val * b + j.val) :
    shapeCast ⟨2, ![n, c]⟩ x h (ix2 q k) = x (ix3 i j k) :=
  shapeCast_apply x h _ _ (by
    rw [Shape.rowMajor_val_three, Shape.rowMajor_val_two]
    show (i.val * b + j.val) * c + k.val = q.val * c + k.val
    rw [hq])

/-! ## Broadcasts along unit axes -/

/-- [a,1,c] broadcast to [a,b,c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- [1,b,c] broadcast to [a,b,c] reads, at (i, j, k), the operand at (0, j, k). -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- [a,b,1] broadcast to [a,b,c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- [1,1,c] broadcast to [a,b,c] reads, at (i, j, k), the operand at (0, 0, k). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A column [a,1] broadcast to [a,b] reads, at (i, j), the column's entry of row i. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end LibLayout3
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.KerPayload.lean ====
/-
  What the kernel body stores, read at one index of its [128,128,128] output block.

  At grid point (I, J) the body holds: a block X0 of P_i (rows I*128 …), a block X1 of P_j (rows J*128 …), a block X2
  of the translations [128,3] (rows I*128 …), a block X3 of the transposed translations [3,128] (columns J*128 …), a
  block X4 of the mask, the whole relative-position table X5 [65,128], and the rows X6 (template weight) and X7
  (template bias). At (a, b, p) it stores

      ((((X0 a p + X1 b p) + X5 (bin R C) p) + sqrt (eps + (((0 + d0*d0) + d1*d1) + d2*d2)) * X6 0 p) + X7 0 p) * X4 a b

  with R = I*128 + a, C = J*128 + b the global positions and dk = X2 a k - X3 k b. The table row comes out of a
  matrix product: the body builds, for every pair (a, b), the 65-entry row that is 1 at the pair's bin and 0 elsewhere
  (a word compare of the bin against 0 … 64, converted to a float), flattens the pairs to 16384 rows, and multiplies
  by the table; on the extended reals the product's sum over the 65 rows keeps exactly the bin's row. The changes of
  float format around the product are the identity here. Everything else is re-laying: unit axes inserted and
  broadcast, columns and rows sliced out of the small blocks.
-/
import proofs.«127354_j12618613915748_2_alg».proof.Proof.Gen.KernelIdeal.Skeleton
import proofs.«127354_j12618613915748_2_alg».proof.Proof.BinBits
import proofs.«127354_j12618613915748_2_alg».proof.Proof.LibLayout3
import proofs.«127354_j12618613915748_2_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KerValue

open Idealize.ShloMosaic Idealize.ShloMosaic.ValueIdx Cert.KernelIdeal Cert.KernelIdeal.Gen Cert.PairSpec

/-- The bin of a pair given by block numbers and offsets inside 128-wide blocks, as the kernel computes it in words. -/
theorem kernel_bin_word (I0 I1 a b R C : Nat) (hR : R = I0 * 128 + a) (hC : C = I1 * 128 + b) (hR' : R < 768) (hC' : C < 768) :
    IntOp.addi (IntOp.minsi 32#32 (IntOp.maxsi 4294967264#32 (IntOp.subi
        (IntOp.addi (Scalar.muli (BitVec.ofNat 32 I0) 128#32) (BitVec.ofNat 32 a))
        (IntOp.addi (Scalar.muli (BitVec.ofNat 32 I1) 128#32) (BitVec.ofNat 32 b))))) 32#32
      = BitVec.ofNat 32 (binNat R C) := by
  rw [row_word, row_word, ← hR, ← hC]
  exact bin_word R C hR' hC'

/-- The first part of the body at (a, b, p): the two projections' entries added, plus the table's row of the pair's
    bin — the one-hot matrix product collapsed. R and C are the pair's global positions. -/
theorem pay2_apply (i : grid0.Coords) (v24 : Vec Ideal S65x128 .f32) (v29 v31 : Vec Ideal S128x128 .f32) (a b p : Fin 128)
    (R C : Fin 768) (hR : R.val = (i 0).val * 128 + a.val) (hC : C.val = (i 1).val * 128 + b.val) :
    k0_pay2 (F := Ideal) i v24 v29 v31 (ix3 a b p) = (v29 (ix2 a p) + v31 (ix2 b p)) + v24 (ix2 (bin R C) p) := by
  unfold k0_pay2
  dsimp only
  rw [addf_apply, addf_apply]
  rw [LibLayout3.broadcastTo_a1c_abc_apply, LibLayout3.shapeCast_ab_a1b_apply, shapeCast_self]
  rw [LibLayout3.broadcastTo_1bc_abc_apply, shapeCast_ab_1ab_apply, shapeCast_self]
  rw [LibLayout3.shapeCast_nc_abc_apply _ _ a b p ⟨a.val * 128 + b.val, by omega⟩ rfl]
  congr 1
  -- the product into the zero block is the plain sum over the 65 rows
  refine (LibMatmulNN.matmul_zero_apply 16384 65 128 none _ _ ⟨a.val * 128 + b.val, by omega⟩ p).trans ?_
  -- each summand is the 0/1 factor of row k times the table's entry; the sum keeps row bin R C
  refine Eq.trans (Finset.sum_congr rfl fun k _ => ?_) (onehot_sum (bin R C) fun k => v24 (ix2 k p))
  rw [LibLayout3.shapeCast_abc_nc_apply _ _ a b k ⟨a.val * 128 + b.val, by omega⟩ rfl]
  rw [truncf_apply, truncf_apply, shapeCast_self, sitofp_apply, extui_apply]
  congr 1
  show FloatOps.sitofp (F := Ideal) .f32 (BitVec.setWidth 32 (IntOp.cmpi .eq (broadcastTo S128x128x65 _ broadcasts_S128x128x1_S128x128x65 (ix3 a b k)) (broadcastTo S128x128x65 _ broadcasts_S1x1x65_S128x128x65 (ix3 a b k)))) = _
  rw [LibLayout3.broadcastTo_ab1_abc_apply, LibLayout3.shapeCast_ab_ab1_apply, LibLayout3.broadcastTo_11c_abc_apply, iota_single_apply]
  refine (congrArg (fun w => FloatOps.sitofp (F := Ideal) .f32 (BitVec.setWidth 32 (IntOp.cmpi .eq w (BitVec.ofNat 32 k.val)))) (?_ : _ = BitVec.ofNat 32 (binNat R.val C.val))).trans (onehot_real _ _ (binNat_lt _ _) k.isLt)
  show IntOp.addi (IntOp.minsi 32#32 (IntOp.maxsi 4294967264#32 (IntOp.subi (IntOp.addi (Scalar.muli (BitVec.ofNat 32 (i 0).val) 128#32) (iota .tc S128x128 32 [0] iota_S128x128_d0_w32 (ix2 a b))) (IntOp.addi (Scalar.muli (BitVec.ofNat 32 (i 1).val) 128#32) (iota .tc S128x128 32 [1] iota_S128x128_d1_w32 (ix2 a b)))))) 32#32 = _
  rw [iota_single_apply, iota_single_apply]
  exact kernel_bin_word (i 0).val (i 1).val a.val b.val R.val C.val hR hC R.isLt C.isLt

/-- The stored value at (a, b, p) from the first part's value v38 and the other loaded blocks: the distance term times
    the template weight, the template bias, and the mask. -/
theorem pay1_apply (v38 : FVec Ideal S128x128x128 .f32) (v40 : FVec Ideal S128x3 .f32) (v41 : Vec Ideal S3x128 .f32)
    (v68 v70 : Vec Ideal S1x128 .f32) (v81 : Vec Ideal S128x128 .f32) (a b p : Fin 128) :
    k0_pay1 (F := Ideal) v38 v40 v41 v68 v70 v81 (ix3 a b p)
      = ((v38 (ix3 a b p)
            + Ideal.sqrt (Ideal.ofBits .f32 0x2EDBE6FF#32
                + (((Ideal.ofBits .f32 0x00000000#32
                      + (v40 (ix2 a (0 : Fin 3)) - v41 (ix2 (0 : Fin 3) b)) * (v40 (ix2 a (0 : Fin 3)) - v41 (ix2 (0 : Fin 3) b)))
                    + (v40 (ix2 a (1 : Fin 3)) - v41 (ix2 (1 : Fin 3) b)) * (v40 (ix2 a (1 : Fin 3)) - v41 (ix2 (1 : Fin 3) b)))
                  + (v40 (ix2 a (2 : Fin 3)) - v41 (ix2 (2 : Fin 3) b)) * (v40 (ix2 a (2 : Fin 3)) - v41 (ix2 (2 : Fin 3) b))))
              * v68 (ix2 (0 : Fin 1) p))
          + v70 (ix2 (0 : Fin 1) p))
        * v81 (ix2 a b) := by
  unfold k0_pay1
  rw [mulf_apply, addf_apply, addf_apply, mulf_apply]
  rw [LibLayout3.broadcastTo_ab1_abc_apply, LibLayout3.broadcastTo_ab1_abc_apply,
    LibLayout3.broadcastTo_11c_abc_apply, LibLayout3.broadcastTo_11c_abc_apply]
  rw [LibLayout3.shapeCast_ab_ab1_apply, LibLayout3.shapeCast_ab_ab1_apply, shapeCast_ab_1ab_apply, shapeCast_ab_1ab_apply]
  simp only [Idealize.ShloMosaic.sqrt, addf_apply, mulf_apply, subf_apply, broadcast_apply, shapeCast_self,
    LibLayout3.broadcastTo_a1_ab_apply, broadcastTo_1b_ab_apply, slice2_axis1_eq, slice2_axis0_eq]
  rfl

/-- The three squared differences accumulated from the zero word, left to right, are their plain sum. -/
theorem three_terms (f : Fin 3 → EReal) :
    ((Ideal.ofBits .f32 0x00000000#32 + f 0) + f 1) + f 2 = ∑ k : Fin 3, f k := by
  rw [Ideal.ofBits_zero_f32, zero_add, Fin.sum_univ_three]

/-- The whole stored value at (a, b, p), over the eight loaded blocks; d k names the k-th coordinate difference of the
    two translations (given pointwise, so that a caller can read the two small blocks wherever they come from). -/
theorem stored_apply (i : grid0.Coords) (x0 x1 : Vec Ideal S128x128 .f32) (x2 : Vec Ideal S128x3 .f32) (x3 : Vec Ideal S3x128 .f32)
    (x4 : Vec Ideal S128x128 .f32) (x5 : Vec Ideal S65x128 .f32) (x6 x7 : Vec Ideal S1x128 .f32) (a b p : Fin 128)
    (R C : Fin 768) (hR : R.val = (i 0).val * 128 + a.val) (hC : C.val = (i 1).val * 128 + b.val)
    (d : Fin 3 → EReal) (hd : ∀ k : Fin 3, x2 (ix2 a k) - x3 (ix2 k b) = d k) :
    k0_pay1 (F := Ideal) (k0_pay2 i x5 x0 x1) (k0_pay3 x2) x3 x6 x7 x4 (ix3 a b p)
      = ((((x0 (ix2 a p) + x1 (ix2 b p)) + x5 (ix2 (bin R C) p))
            + Ideal.sqrt (Ideal.ofBits .f32 0x2EDBE6FF#32 + ∑ k : Fin 3, d k * d k)
              * x6 (ix2 (0 : Fin 1) p))
          + x7 (ix2 (0 : Fin 1) p))
        * x4 (ix2 a b) := by
  rw [pay1_apply, pay2_apply i x5 x0 x1 a b p R C hR hC,
    three_terms fun k => (k0_pay3 x2 (ix2 a k) - x3 (ix2 k b)) * (k0_pay3 x2 (ix2 a k) - x3 (ix2 k b))]
  unfold k0_pay3
  simp only [shapeCast_self, hd]

end Cert.KernelIdeal.KerValue

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibHostRead.lean ====
/-
  Host reductions and a host product read at an index, on the extended reals. A host sum along the second axis of an
  [r, n] array, at row p: the initial value plus the sum over the n entries of row p. A host sum of a whole vector: the
  initial value plus the sum of its entries. A host dot_general of an [M, K] array with an [N, K] array, both contracted on
  their last axis, at (p, q): the sum over k of x[p, k] · w[q, k]. General in the extents.
-/
import Idealize.ShloMosaic.PureOps.Ideal.Laws
import Idealize.ShloMosaic.Lib.ValueIdx
import proofs.«127354_j12618613915748_2_alg».proof.Proof.LibMatmulNT
import proofs.«127354_j12618613915748_2_alg».proof.Proof.LibLaneReduce

noncomputable section

open scoped BigOperators

namespace LibHostRead

open Idealize.ShloMosaic Idealize.ShloMosaic.ValueIdx

/-- A host sum along the second axis, read at row p. -/
theorem hostRowSum_apply {r n : Nat} {u : Shape} (x : FVec Ideal ⟨2, ![r, n]⟩ .f32) (init : u.Idx → Ideal .f32)
    (h' : (⟨2, ![r, n]⟩ : Shape).ReducesTo [1] ⟨1, ![r]⟩) (hu : 0 < u.numel)
    (h : (⟨2, ![r, n]⟩ : Shape).Reduces [1] ⟨1, ![r]⟩) (p : Fin r) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h x _ (ix1 p)]
  exact congrArg (init (Shape.Idx.first hu) + ·) (Finset.sum_congr rfl fun k _ => congrArg x (LibLaneReduce.lift_lanes h p k))

/-- An index of a vector is its one coordinate. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) : ∑ i, f i = ∑ k : Fin n, f (ix1 k) :=
  (Equiv.sum_comp (idxEquiv1 (n := n)).symm f).symm

/-- A host sum of a whole vector. -/
theorem hostTotalSum_apply {n : Nat} {u : Shape} (x : FVec Ideal ⟨1, ![n]⟩ .f32) (init : u.Idx → Ideal .f32)
    (h' : (⟨1, ![n]⟩ : Shape).ReducesTo [0] ⟨0, ![]⟩) (hu : 0 < u.numel) (j : (⟨0, ![]⟩ : Shape).Idx) :
    Host.reduceAdd x init h' hu j = init (Shape.Idx.first hu) + ∑ k : Fin n, x (ix1 k) := by
  show Ideal.hostReduceAdd h' x (init (Shape.Idx.first hu)) j = _
  rw [Ideal.hostReduceAdd_total h' (fun b => b.elim0) x _ j, sum_idx1]

/-- A host product of two arrays contracted on their last axes, read at (p, q). -/
theorem dotGeneralNT_apply {M K N : Nat} {φ₁ φ₂ : FTy} (prec : Option ContractPrecision)
    (x : FVec Ideal ⟨2, ![M, K]⟩ φ₁) (w : FVec Ideal ⟨2, ![N, K]⟩ φ₂) (p : Fin M) (q : Fin N) :
    Host.dotGeneral (DotDims.transposedRhs M K N) prec x w (ix2 p q) = ∑ k : Fin K, x (ix2 p k) * w (ix2 q k) := by
  show FloatOps.dotGeneral (DotDims.transposedRhs M K N) prec .single x w (ix2 p q) = _
  rw [Ideal.dotGeneral_apply, ← Equiv.sum_comp (contrEquiv1 (DotDims.transposedRhs M K N) K rfl rfl).symm]
  refine Finset.sum_congr rfl fun k _ => ?_
  rw [LibMatmulNT.lhsIdx_eq, LibMatmulNT.rhsIdx_eq]

end LibHostRead

end
-- ==== Proof.LibBroadcastInDimPair.lean ====
/-
  A host `broadcast_in_dim` of a rank-2 operand with a unit axis onto axes (0, 1) of a rank-2 result, read at an index,
  in the style of the library's Lib/ValueLayout.lean (which has the vector-broadcast forms): a COLUMN [a, 1] spread along
  the second axis of [a, b], and a ROW [1, b] spread down the first axis of [a, b].  General in the two extents and in the
  element type.
-/
import Idealize.ShloMosaic.Lib.Pipeline.Value
import Idealize.ShloMosaic.Lib.ValueIdx

noncomputable section

namespace Idealize.ShloMosaic.ValueIdx

variable {α : Type}

/-- A column `[a, 1]` placed on axes (0, 1) of `[a, b]` reads, at `(p, c)`, the column's entry of row `p`. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` placed on axes (0, 1) of `[a, b]` reads, at `(p, c)`, the row's entry of column `c`. -/
theorem broadcastInDim_row_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx

end
-- ==== Proof.KerHost.lean ====
/-
  What the kernel finds in its eight operand arrays: the host lines before the launch, read at an index.

  Before the launch the program computes, from the argument arrays: the two projections P_i and P_j
  (a matrix product of the features against a weight matrix contracted on the feature axis, plus a bias row broadcast
  down the positions); the relative-position table (the weight matrix transposed, plus its bias row broadcast down
  the 65 bins); the template weight as a row (a [128,1] column flattened, then given a leading unit axis) and the
  template bias as a row; the translations with the batch axis dropped, and that matrix transposed; the mask with the
  batch axis dropped. Each is read here at an index as an expression of the arguments at indices.
-/
import proofs.«127354_j12618613915748_2_alg».proof.Proof.KernelIdealFrame
import proofs.«127354_j12618613915748_2_alg».proof.Proof.Spec
import proofs.«127354_j12618613915748_2_alg».proof.Proof.LibHostRead
import proofs.«127354_j12618613915748_2_alg».proof.Proof.LibBroadcastInDimPair
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

noncomputable section

namespace Cert.KernelIdeal.KerValue

open Idealize.ShloMosaic Idealize.ShloMosaic.TcCoe Idealize.ShloMosaic.ValueIdx Idealize.SL.Sem
open Cert.KernelIdeal Cert.KernelIdeal.Gen Cert.KernelIdeal.GenP Cert.PairSpec

variable {α : Type}

/-- A vector [b] given a leading unit axis by broadcast_in_dim onto axis 1 of [1,b] reads, at (u, c), the vector at c. -/
theorem broadcastInDim_vec_row_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A column [a,1] flattened to a vector [a] reads, at i, the column's entry of row i. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ)

/-- The eleven argument arrays of core c, each at its array type. -/
abbrev a0 (c : Dev nD) : FVec Ideal S1x768x384 .f32 := m ((c.tc : Thread nD τ).loc main_arg0)
abbrev a1 (c : Dev nD) : FVec Ideal S1x768x3 .f32 := m ((c.tc : Thread nD τ).loc main_arg1)
abbrev a2 (c : Dev nD) : FVec Ideal S1x768x768 .f32 := m ((c.tc : Thread nD τ).loc main_arg2)
abbrev a3 (c : Dev nD) : FVec Ideal S128x384 .f32 := m ((c.tc : Thread nD τ).loc main_arg3)
abbrev a4 (c : Dev nD) : FVec Ideal S128 .f32 := m ((c.tc : Thread nD τ).loc main_arg4)
abbrev a5 (c : Dev nD) : FVec Ideal S128x384 .f32 := m ((c.tc : Thread nD τ).loc main_arg5)
abbrev a6 (c : Dev nD) : FVec Ideal S128 .f32 := m ((c.tc : Thread nD τ).loc main_arg6)
abbrev a7 (c : Dev nD) : FVec Ideal S128x65 .f32 := m ((c.tc : Thread nD τ).loc main_arg7)
abbrev a8 (c : Dev nD) : FVec Ideal S128 .f32 := m ((c.tc : Thread nD τ).loc main_arg8)
abbrev a9 (c : Dev nD) : FVec Ideal S128x1 .f32 := m ((c.tc : Thread nD τ).loc main_arg9)
abbrev a10 (c : Dev nD) : FVec Ideal S128 .f32 := m ((c.tc : Thread nD τ).loc main_arg10)

/-- The eight operand arrays as the launch finds them, each at its array type. -/
abbrev w0 (c : Dev nD) : FVec Ideal S768x128 .f32 := V (F := Ideal) m c main_v4
abbrev w1 (c : Dev nD) : FVec Ideal S768x128 .f32 := V (F := Ideal) m c main_v8
abbrev w2 (c : Dev nD) : FVec Ideal S768x3 .f32 := V (F := Ideal) m c main_v16
abbrev w3 (c : Dev nD) : FVec Ideal S3x768 .f32 := V (F := Ideal) m c main_v17
abbrev w4 (c : Dev nD) : FVec Ideal S768x768 .f32 := V (F := Ideal) m c main_v18
abbrev w5 (c : Dev nD) : FVec Ideal S65x128 .f32 := V (F := Ideal) m c main_v12
abbrev w6 (c : Dev nD) : FVec Ideal S1x128 .f32 := V (F := Ideal) m c main_v14
abbrev w7 (c : Dev nD) : FVec Ideal S1x128 .f32 := V (F := Ideal) m c main_v15

/-- Operand 0 (P_i): the projection of position r onto channel p. -/
theorem w0_apply (c : Dev nD) (r : Fin 768) (p : Fin 128) :
    w0 m c (ix2 r p) = proj (a0 m c) (a3 m c) (a4 m c) r p := by
  have e : w0 m c
      = addf (Host.dotGeneral (F := Ideal) dot_S768x384_S128x384_S768x128_1_1_0_0_n_n none
          (shapeCast S768x384 (a0 m c) shapeCasts_S1x768x384_S768x384) (a3 m c))
        (broadcastInDim S768x128 ![0, 1] bcast_S1x128_S768x128_0_1 (broadcastInDim S1x128 ![1] bcast_S128_S1x128_1 (a4 m c))) := by
    show StableHlo.after hostOps0 (fun b => m (c, b)) (Proc.devRef .tc main_v4) = _
    after_results
    rfl
  rw [e, addf_apply]
  unfold proj
  congr 1
  · refine (LibHostRead.dotGeneralNT_apply none _ _ r p).trans ?_
    refine Finset.sum_congr rfl fun k _ => ?_
    rw [shapeCast_1ab_ab_apply]
  · rw [broadcastInDim_row_apply, broadcastInDim_vec_row_apply]

/-- Operand 1 (P_j). -/
theorem w1_apply (c : Dev nD) (r : Fin 768) (p : Fin 128) :
    w1 m c (ix2 r p) = proj (a0 m c) (a5 m c) (a6 m c) r p := by
  have e : w1 m c
      = addf (Host.dotGeneral (F := Ideal) dot_S768x384_S128x384_S768x128_1_1_0_0_n_n none
          (shapeCast S768x384 (a0 m c) shapeCasts_S1x768x384_S768x384) (a5 m c))
        (broadcastInDim S768x128 ![0, 1] bcast_S1x128_S768x128_0_1 (broadcastInDim S1x128 ![1] bcast_S128_S1x128_1 (a6 m c))) := by
    show StableHlo.after hostOps0 (fun b => m (c, b)) (Proc.devRef .tc main_v8) = _
    after_results
    rfl
  rw [e, addf_apply]
  unfold proj
  congr 1
  · refine (LibHostRead.dotGeneralNT_apply none _ _ r p).trans ?_
    refine Finset.sum_congr rfl fun k _ => ?_
    rw [shapeCast_1ab_ab_apply]
  · rw [broadcastInDim_row_apply, broadcastInDim_vec_row_apply]

/-- Operand 5 (the relative-position table): row k, channel p is W_rel p k + b_rel p. -/
theorem w5_apply (c : Dev nD) (k : Fin 65) (p : Fin 128) :
    w5 m c (ix2 k p) = a7 m c (ix2 p k) + a8 m c (ix1 p) := by
  have e : w5 m c
      = addf (transpose S65x128 [1, 0] (a7 m c) transposes_S128x65_S65x128_1_0)
        (broadcastInDim S65x128 ![0, 1] bcast_S1x128_S65x128_0_1 (broadcastInDim S1x128 ![1] bcast_S128_S1x128_1 (a8 m c))) := by
    show StableHlo.after hostOps0 (fun b => m (c, b)) (Proc.devRef .tc main_v12) = _
    after_results
  rw [e, addf_apply, transpose_ix2_apply, broadcastInDim_row_apply, broadcastInDim_vec_row_apply]

/-- Operand 2 (the translations, batch axis dropped). -/
theorem w2_apply (c : Dev nD) (r : Fin 768) (k : Fin 3) : w2 m c (ix2 r k) = a1 m c (ix3 (0 : Fin 1) r k) := by
  have e : w2 m c = shapeCast S768x3 (a1 m c) shapeCasts_S1x768x3_S768x3 := by
    show StableHlo.after hostOps0 (fun b => m (c, b)) (Proc.devRef .tc main_v16) = _
    after_results
    rfl
  rw [e, shapeCast_1ab_ab_apply]

/-- Operand 3 (the translations transposed). -/
theorem w3_apply (c : Dev nD) (k : Fin 3) (r : Fin 768) : w3 m c (ix2 k r) = a1 m c (ix3 (0 : Fin 1) r k) := by
  have e : w3 m c = transpose S3x768 [1, 0] (shapeCast S768x3 (a1 m c) shapeCasts_S1x768x3_S768x3) transposes_S768x3_S3x768_1_0 := by
    show StableHlo.after hostOps0 (fun b => m (c, b)) (Proc.devRef .tc main_v17) = _
    after_results
    rfl
  rw [e, transpose_ix2_apply, shapeCast_1ab_ab_apply]

/-- Operand 4 (the mask, batch axis dropped). -/
theorem w4_apply (c : Dev nD) (r q : Fin 768) : w4 m c (ix2 r q) = a2 m c (ix3 (0 : Fin 1) r q) := by
  have e : w4 m c = shapeCast S768x768 (a2 m c) shapeCasts_S1x768x768_S768x768 := by
    show StableHlo.after hostOps0 (fun b => m (c, b)) (Proc.devRef .tc main_v18) = _
    after_results
    rfl
  rw [e, shapeCast_1ab_ab_apply]

/-- Operand 6 (the template weight as a row). -/
theorem w6_apply (c : Dev nD) (u : Fin 1) (p : Fin 128) : w6 m c (ix2 u p) = a9 m c (ix2 p (0 : Fin 1)) := by
  have e : w6 m c = broadcastInDim S1x128 ![1] bcast_S128_S1x128_1 (shapeCast S128 (a9 m c) shapeCasts_S128x1_S128) := by
    show StableHlo.after hostOps0 (fun b => m (c, b)) (Proc.devRef .tc main_v14) = _
    after_results
    rfl
  rw [e, broadcastInDim_vec_row_apply, shapeCast_a1_a_apply]

/-- Operand 7 (the template bias as a row). -/
theorem w7_apply (c : Dev nD) (u : Fin 1) (p : Fin 128) : w7 m c (ix2 u p) = a10 m c (ix1 p) := by
  have e : w7 m c = broadcastInDim S1x128 ![1] bcast_S128_S1x128_1 (a10 m c) := by
    show StableHlo.after hostOps0 (fun b => m (c, b)) (Proc.devRef .tc main_v15) = _
    after_results
  rw [e, broadcastInDim_vec_row_apply]

end Cert.KernelIdeal.KerValue

end
-- ==== Proof.KerBlocks.lean ====
/-
  From the blocks the kernel writes to the whole result array, and the program's run.

  The grid has 6 x 6 points. At point (I, J) the launch hands the body the row block I of P_i and of the translations,
  the row block J of P_j, the column block J of the transposed translations, block (I, J) of the mask, and the whole
  table and the two template rows; and it writes the body's [128,128,128] result back as block (I, J, 0) of the
  [768,768,128] result array. Which block of which array each window shows at a point is decided once over the 36
  points. An element (a, b, p) of block (I, J, 0) is the result array's element (R, C, p) with R = I*128 + a,
  C = J*128 + b; reading each loaded block where the stored value needs it gives the specification's entry at
  (R, C, p). The 36 blocks cover the array (element (r, c, p) lies in block (r / 128, c / 128, 0)), so the array ends
  holding the specification; the one host line after the launch only adds a leading unit axis.
-/
import proofs.«127354_j12618613915748_2_alg».proof.Proof.KernelIdealFrame
import proofs.«127354_j12618613915748_2_alg».proof.Proof.KerPayload
import proofs.«127354_j12618613915748_2_alg».proof.Proof.KerHost
import Idealize.ShloMosaic.Lib.Pipeline.Value
import Idealize.ShloMosaic.Lib.StableHlo.Run
import Idealize.ShloMosaic.Lib.Tactic

noncomputable section

namespace Cert.KernelIdeal.KerValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.PairSpec

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- Which block each window shows at each of the 36 points, decided over the grid: (I, J) the point's coordinates. -/
theorem idx_facts : ∀ t : Fin cfg0.N,
    win0_0.index t (0 : Fin 2) = (grid0.coords t 0).val ∧ win0_0.index t (1 : Fin 2) = 0
    ∧ win0_1.index t (0 : Fin 2) = (grid0.coords t 1).val ∧ win0_1.index t (1 : Fin 2) = 0
    ∧ win0_2.index t (0 : Fin 2) = (grid0.coords t 0).val ∧ win0_2.index t (1 : Fin 2) = 0
    ∧ win0_3.index t (0 : Fin 2) = 0 ∧ win0_3.index t (1 : Fin 2) = (grid0.coords t 1).val
    ∧ win0_4.index t (0 : Fin 2) = (grid0.coords t 0).val ∧ win0_4.index t (1 : Fin 2) = (grid0.coords t 1).val
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = (grid0.coords t 0).val ∧ win0_8.index t (1 : Fin 3) = (grid0.coords t 1).val
    ∧ win0_8.index t (2 : Fin 3) = 0
    ∧ (grid0.coords t 0).val < 6 ∧ (grid0.coords t 1).val < 6 :=
  (by decide +kernel : ∀ t : Fin grid0.N, _)

/-- Every block (q0, q1, 0) of the result array is some point's. -/
theorem idx_onto : ∀ (q0 q1 : Fin 6), ∃ t : Fin cfg0.N, win0_8.index t = ![q0.val, q1.val, 0] :=
  (by decide +kernel : ∀ (q0 q1 : Fin 6), ∃ t : Fin grid0.N, win0_8.index t = ![q0.val, q1.val, 0])

/-! ## Each window's block at a point, read as its array at the global index -/

/-- The P_i block. -/
theorem blk0_apply (c : Dev nD) (t : Fin cfg0.N) (a : Fin 128) (p : Fin 128) (k : S768x128.Idx)
    (h0 : (k 0).val = win0_0.index t (0 : Fin 2) * 128 + a.val) (h1 : (k 1).val = win0_0.index t (1 : Fin 2) * 128 + p.val) :
    (iblk (F := Ideal) m c 0 t : Vec Ideal S128x128 .f32) (ix2 a p) = w0 m c k := by
  unfold iblk
  rw [View.read_apply]
  refine congrArg (w0 m c) (funext fun ax => Fin.ext ?_)
  match ax with
  | ⟨0, _⟩ => show win0_0.index t (0 : Fin 2) * 128 + 1 * a.val = (k 0).val; omega
  | ⟨1, _⟩ => show win0_0.index t (1 : Fin 2) * 128 + 1 * p.val = (k 1).val; omega

/-- The P_j block. -/
theorem blk1_apply (c : Dev nD) (t : Fin cfg0.N) (b : Fin 128) (p : Fin 128) (k : S768x128.Idx)
    (h0 : (k 0).val = win0_1.index t (0 : Fin 2) * 128 + b.val) (h1 : (k 1).val = win0_1.index t (1 : Fin 2) * 128 + p.val) :
    (iblk (F := Ideal) m c 1 t : Vec Ideal S128x128 .f32) (ix2 b p) = w1 m c k := by
  unfold iblk
  rw [View.read_apply]
  refine congrArg (w1 m c) (funext fun ax => Fin.ext ?_)
  match ax with
  | ⟨0, _⟩ => show win0_1.index t (0 : Fin 2) * 128 + 1 * b.val = (k 0).val; omega
  | ⟨1, _⟩ => show win0_1.index t (1 : Fin 2) * 128 + 1 * p.val = (k 1).val; omega

/-- The translations' row block. -/
theorem blk2_apply (c : Dev nD) (t : Fin cfg0.N) (a : Fin 128) (k' : Fin 3) (k : S768x3.Idx)
    (h0 : (k 0).val = win0_2.index t (0 : Fin 2) * 128 + a.val) (h1 : (k 1).val = win0_2.index t (1 : Fin 2) * 3 + k'.val) :
    (iblk (F := Ideal) m c 2 t : Vec Ideal S128x3 .f32) (ix2 a k') = w2 m c k := by
  unfold iblk
  rw [View.read_apply]
  refine congrArg (w2 m c) (funext fun ax => Fin.ext ?_)
  match ax with
  | ⟨0, _⟩ => show win0_2.index t (0 : Fin 2) * 128 + 1 * a.val = (k 0).val; omega
  | ⟨1, _⟩ => show win0_2.index t (1 : Fin 2) * 3 + 1 * k'.val = (k 1).val; omega

/-- The transposed translations' column block. -/
theorem blk3_apply (c : Dev nD) (t : Fin cfg0.N) (k' : Fin 3) (b : Fin 128) (k : S3x768.Idx)
    (h0 : (k 0).val = win0_3.index t (0 : Fin 2) * 3 + k'.val) (h1 : (k 1).val = win0_3.index t (1 : Fin 2) * 128 + b.val) :
    (iblk (F := Ideal) m c 3 t : Vec Ideal S3x128 .f32) (ix2 k' b) = w3 m c k := by
  unfold iblk
  rw [View.read_apply]
  refine congrArg (w3 m c) (funext fun ax => Fin.ext ?_)
  match ax with
  | ⟨0, _⟩ => show win0_3.index t (0 : Fin 2) * 3 + 1 * k'.val = (k 0).val; omega
  | ⟨1, _⟩ => show win0_3.index t (1 : Fin 2) * 128 + 1 * b.val = (k 1).val; omega

/-- The mask's block. -/
theorem blk4_apply (c : Dev nD) (t : Fin cfg0.N) (a : Fin 128) (b : Fin 128) (k : S768x768.Idx)
    (h0 : (k 0).val = win0_4.index t (0 : Fin 2) * 128 + a.val) (h1 : (k 1).val = win0_4.index t (1 : Fin 2) * 128 + b.val) :
    (iblk (F := Ideal) m c 4 t : Vec Ideal S128x128 .f32) (ix2 a b) = w4 m c k := by
  unfold iblk
  rw [View.read_apply]
  refine congrArg (w4 m c) (funext fun ax => Fin.ext ?_)
  match ax with
  | ⟨0, _⟩ => show win0_4.index t (0 : Fin 2) * 128 + 1 * a.val = (k 0).val; omega
  | ⟨1, _⟩ => show win0_4.index t (1 : Fin 2) * 128 + 1 * b.val = (k 1).val; omega

/-- The whole table. -/
theorem blk5_apply (c : Dev nD) (t : Fin cfg0.N) (k' : Fin 65) (p : Fin 128) (k : S65x128.Idx)
    (h0 : (k 0).val = win0_5.index t (0 : Fin 2) * 65 + k'.val) (h1 : (k 1).val = win0_5.index t (1 : Fin 2) * 128 + p.val) :
    (iblk (F := Ideal) m c 5 t : Vec Ideal S65x128 .f32) (ix2 k' p) = w5 m c k := by
  unfold iblk
  rw [View.read_apply]
  refine congrArg (w5 m c) (funext fun ax => Fin.ext ?_)
  match ax with
  | ⟨0, _⟩ => show win0_5.index t (0 : Fin 2) * 65 + 1 * k'.val = (k 0).val; omega
  | ⟨1, _⟩ => show win0_5.index t (1 : Fin 2) * 128 + 1 * p.val = (k 1).val; omega

/-- The template weight row. -/
theorem blk6_apply (c : Dev nD) (t : Fin cfg0.N) (u : Fin 1) (p : Fin 128) (k : S1x128.Idx)
    (h0 : (k 0).val = win0_6.index t (0 : Fin 2) * 1 + u.val) (h1 : (k 1).val = win0_6.index t (1 : Fin 2) * 128 + p.val) :
    (iblk (F := Ideal) m c 6 t : Vec Ideal S1x128 .f32) (ix2 u p) = w6 m c k := by
  unfold iblk
  rw [View.read_apply]
  refine congrArg (w6 m c) (funext fun ax => Fin.ext ?_)
  match ax with
  | ⟨0, _⟩ => show win0_6.index t (0 : Fin 2) * 1 + 1 * u.val = (k 0).val; omega
  | ⟨1, _⟩ => show win0_6.index t (1 : Fin 2) * 128 + 1 * p.val = (k 1).val; omega

/-- The template bias row. -/
theorem blk7_apply (c : Dev nD) (t : Fin cfg0.N) (u : Fin 1) (p : Fin 128) (k : S1x128.Idx)
    (h0 : (k 0).val = win0_7.index t (0 : Fin 2) * 1 + u.val) (h1 : (k 1).val = win0_7.index t (1 : Fin 2) * 128 + p.val) :
    (iblk (F := Ideal) m c 7 t : Vec Ideal S1x128 .f32) (ix2 u p) = w7 m c k := by
  unfold iblk
  rw [View.read_apply]
  refine congrArg (w7 m c) (funext fun ax => Fin.ext ?_)
  match ax with
  | ⟨0, _⟩ => show win0_7.index t (0 : Fin 2) * 1 + 1 * u.val = (k 0).val; omega
  | ⟨1, _⟩ => show win0_7.index t (1 : Fin 2) * 128 + 1 * p.val = (k 1).val; omega

/-! ## What point t writes back -/

/-- The result array [768,768,128] the launch leaves, as a function of the argument arrays. -/
def G3 (c : Dev nD) : FVec Ideal S768x768x128 .f32 := fun i =>
  entry (a0 m c) (a1 m c) (a2 m c) (a3 m c) (a4 m c) (a5 m c) (a6 m c) (a7 m c) (a8 m c) (a9 m c) (a10 m c) (i 0) (i 1) (i 2)

theorem flushed_eq (c : Dev nD) (t : Fin cfg0.N) :
    (dats (F := Ideal) m 0 c).flushed 8 t = ((cfg0.win 8).blk t).view.read (Elt Ideal) (G3 m c) := by
  show (cfg0.win 8).cut (grid0.coords t) ((dats (F := Ideal) m 0 c).after 8 t) = _
  rw [after0_8]
  unfold out0_8
  rw [View.canon_unit_zero hz3]
  simp only [View.ld_unit_zero (S := S65x128) hz2, View.ld_unit_zero (S := S128x128) hz2, View.ld_unit_zero (S := S128x3) hz2,
    View.ld_unit_zero (S := S3x128) hz2, View.ld_unit_zero (S := S1x128) hz2]
  show k0_pay1 (F := Ideal) (k0_pay2 (grid0.coords t) (iblk m c 5 t) (iblk m c 0 t) (iblk m c 1 t)) (k0_pay3 (iblk m c 2 t))
      (iblk m c 3 t) (iblk m c 6 t) (iblk m c 7 t) (iblk m c 4 t) = _
  funext j
  obtain ⟨a, b, p, rfl⟩ : ∃ (a b p : Fin 128), j = ix3 a b p := ⟨j 0, j 1, j 2, eq_ix3 j⟩
  rw [View.read_apply]
  obtain ⟨f00, f01, f10, f11, f20, f21, f30, f31, f40, f41, f50, f51, f60, f61, f70, f71, f80, f81, f82, hI, hJ⟩ := idx_facts t
  have hR0 : (grid0.coords t 0).val * 128 + a.val < 768 := by have := a.isLt; omega
  have hC0 : (grid0.coords t 1).val * 128 + b.val < 768 := by have := b.isLt; omega
  obtain ⟨R, hR⟩ : ∃ R : Fin 768, R.val = (grid0.coords t 0).val * 128 + a.val := ⟨⟨_, hR0⟩, rfl⟩
  obtain ⟨C, hC⟩ : ∃ C : Fin 768, C.val = (grid0.coords t 1).val * 128 + b.val := ⟨⟨_, hC0⟩, rfl⟩
  -- the two small blocks of the translations, read as the argument at the global positions
  have e2 : ∀ k : Fin 3, (iblk (F := Ideal) m c 2 t : Vec Ideal S128x3 .f32) (ix2 a k) = w2 m c (ix2 R k) :=
    fun k => blk2_apply m c t a k (ix2 R k) (by show R.val = win0_2.index t (0 : Fin 2) * 128 + a.val; rw [f20, hR]) (by show k.val = win0_2.index t (1 : Fin 2) * 3 + k.val; rw [f21]; omega)
  have e3 : ∀ k : Fin 3, (iblk (F := Ideal) m c 3 t : Vec Ideal S3x128 .f32) (ix2 k b) = w3 m c (ix2 k C) :=
    fun k => blk3_apply m c t k b (ix2 k C) (by show k.val = win0_3.index t (0 : Fin 2) * 3 + k.val; rw [f30]; omega) (by show C.val = win0_3.index t (1 : Fin 2) * 128 + b.val; rw [f31, hC])
  -- the stored value over the loaded blocks
  refine (stored_apply (grid0.coords t) (iblk m c 0 t) (iblk m c 1 t) (iblk m c 2 t) (iblk m c 3 t) (iblk m c 4 t)
    (iblk m c 5 t) (iblk m c 6 t) (iblk m c 7 t) a b p R C hR hC
    (fun k => a1 m c (ix3 (0 : Fin 1) R k) - a1 m c (ix3 (0 : Fin 1) C k))
    (fun k => by rw [e2 k, e3 k, w2_apply, w3_apply])).trans ?_
  -- each other loaded block read where the element needs it, as its array at the global index
  rw [blk0_apply m c t a p (ix2 R p) (by show R.val = win0_0.index t (0 : Fin 2) * 128 + a.val; rw [f00, hR]) (by show p.val = win0_0.index t (1 : Fin 2) * 128 + p.val; rw [f01]; omega),
    blk1_apply m c t b p (ix2 C p) (by show C.val = win0_1.index t (0 : Fin 2) * 128 + b.val; rw [f10, hC]) (by show p.val = win0_1.index t (1 : Fin 2) * 128 + p.val; rw [f11]; omega),
    blk4_apply m c t a b (ix2 R C) (by show R.val = win0_4.index t (0 : Fin 2) * 128 + a.val; rw [f40, hR]) (by show C.val = win0_4.index t (1 : Fin 2) * 128 + b.val; rw [f41, hC]),
    blk5_apply m c t (bin R C) p (ix2 (bin R C) p) (by show (bin R C).val = win0_5.index t (0 : Fin 2) * 65 + (bin R C).val; rw [f50]; omega) (by show p.val = win0_5.index t (1 : Fin 2) * 128 + p.val; rw [f51]; omega),
    blk6_apply m c t (0 : Fin 1) p (ix2 (0 : Fin 1) p) (by show (0 : Nat) = win0_6.index t (0 : Fin 2) * 1 + 0; rw [f60]) (by show p.val = win0_6.index t (1 : Fin 2) * 128 + p.val; rw [f61]; omega),
    blk7_apply m c t (0 : Fin 1) p (ix2 (0 : Fin 1) p) (by show (0 : Nat) = win0_7.index t (0 : Fin 2) * 1 + 0; rw [f70]) (by show p.val = win0_7.index t (1 : Fin 2) * 128 + p.val; rw [f71]; omega)]
  -- the arrays as the host lines before the launch left them
  rw [w0_apply, w1_apply, w4_apply, w5_apply, w6_apply, w7_apply]
  -- the element's place in the result array
  have hemb : ((View.whole main_v19).slice ((win0 8).rect t)).emb (ix3 a b p) = (ix3 R C p : S768x768x128.Idx) := by
    funext ax; apply Fin.ext
    match ax with
    | ⟨0, _⟩ => show win0_8.index t (0 : Fin 3) * 128 + 1 * a.val = R.val; rw [f80, hR]; omega
    | ⟨1, _⟩ => show win0_8.index t (1 : Fin 3) * 128 + 1 * b.val = C.val; rw [f81, hC]; omega
    | ⟨2, _⟩ => show win0_8.index t (2 : Fin 3) * 128 + 1 * p.val = p.val; rw [f82]; omega
  rw [hemb]
  rfl

/-! ## The blocks cover the array -/

/-- An index of the result array is in point t's block iff each coordinate is in the block's range on its axis. -/
theorem mem_blk (t : Fin cfg0.N) (i : S768x768x128.Idx) :
    i ∈ ((cfg0.win 8).blk t).view.set ↔ ∀ a : Fin 3, win0_8.index t a * S128x128x128.size a ≤ (i a).val ∧ (i a).val < win0_8.index t a * S128x128x128.size a + S128x128x128.size a := by
  show i ∈ ((View.whole main_v19).slice (win0_8.rect t)).set ↔ _
  rw [View.set_slice_whole, Rect.mem_set_unit]
  exact Iff.rfl

/-- Element (r, q, p) lies in the block of the point whose coordinates are (r / 128, q / 128). -/
theorem cover (i : S768x768x128.Idx) : ∃ t : Fin cfg0.N, (cfg0.win 8).flush t = true ∧ i ∈ ((cfg0.win 8).blk t).view.set := by
  have hi0 : (i 0).val < 768 := (i 0).isLt
  have hi1 : (i 1).val < 768 := (i 1).isLt
  have hi2 : (i 2).val < 128 := (i 2).isLt
  obtain ⟨t, ht⟩ := idx_onto ⟨(i 0).val / 128, by omega⟩ ⟨(i 1).val / 128, by omega⟩
  have q0 : win0_8.index t (0 : Fin 3) = (i 0).val / 128 := congrFun ht 0
  have q1 : win0_8.index t (1 : Fin 3) = (i 1).val / 128 := congrFun ht 1
  have q2 : win0_8.index t (2 : Fin 3) = 0 := congrFun ht 2
  refine ⟨t, flush0_8 t, ?_⟩
  rw [mem_blk]
  intro a
  match a with
  | ⟨0, _⟩ => show win0_8.index t (0 : Fin 3) * 128 ≤ (i 0).val ∧ (i 0).val < win0_8.index t (0 : Fin 3) * 128 + 128; omega
  | ⟨1, _⟩ => show win0_8.index t (1 : Fin 3) * 128 ≤ (i 1).val ∧ (i 1).val < win0_8.index t (1 : Fin 3) * 128 + 128; omega
  | ⟨2, _⟩ => show win0_8.index t (2 : Fin 3) * 128 ≤ (i 2).val ∧ (i 2).val < win0_8.index t (2 : Fin 3) * 128 + 128; omega

/-- The result array after the launch is the specification's three-axis form. -/
theorem final (c : Dev nD) : (dats (F := Ideal) m 0 c).arrAt 8 cfg0.N = G3 m c :=
  (dats (F := Ideal) m 0 c).arrAt_eq_of_cover 8 (G3 m c) (fun t _ => flushed_eq m c t) cover

end Cert.KernelIdeal.KerValue

end
-- ==== Proof.KerRun.lean ====
/-
  The idealized kernel program's run, read: the result ends at the specification of the arguments.

  After the launch the result array [768,768,128] holds the specification's entries; the program's one remaining host
  line gives it a leading unit axis, so the program's result [1,768,768,128] at (u, r, c, p) is the entry of (r, c, p).
  The frame's run states every buffer after the program; here it is re-posted at the result and the eleven arguments.
-/
import proofs.«127354_j12618613915748_2_alg».proof.Proof.KerBlocks

noncomputable section

namespace Cert.KernelIdeal.KerValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.PairSpec

variable {α : Type}

/-- An array [a,b,c] given a leading unit axis by broadcast_in_dim onto axes (1,2,3) of [1,a,b,c] reads, at
    (u, i, j, k), the array at (i, j, k). -/
theorem broadcastInDim_lead_apply {a b c : ℕ} (v : (⟨3, ![a, b, c]⟩ : Shape).Idx → α)
    (h : (⟨3, ![a, b, c]⟩ : Shape).BroadcastsInDim ⟨4, ![1, a, b, c]⟩ ![1, 2, 3]) (u : Fin 1) (i : Fin a) (j : Fin b) (k : Fin c) :
    broadcastInDim ⟨4, ![1, a, b, c]⟩ ![1, 2, 3] h v (ix4 u i j k) = v (ix3 i j k) := by
  refine broadcastInDim_apply _ h v (ix4 u i j k) (ix3 i j k) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl

variable (m : (ℓ : Loc nD τ sig) → Buf (Elt Ideal) ℓ) (ρ : Dev nD → PrngReg)

/-- What the host line after the launch leaves in the program's result: the specification. -/
theorem tail_eq (c : Dev nD) :
    (Pipeline.afterTail₀ cfgs (dats (F := Ideal) m) 0 (V0 m) [hostOps1] c main_v20 : FVec Ideal S1x768x768x128 .f32)
      = G (a0 m c) (a1 m c) (a2 m c) (a3 m c) (a4 m c) (a5 m c) (a6 m c) (a7 m c) (a8 m c) (a9 m c) (a10 m c) := by
  unfold Pipeline.afterTail₀
  show StableHlo.after hostOps1 _ (Proc.devRef .tc main_v20) = _
  after_results
  have hw : Pipeline.withArrays (cfgs 0).spec c (V0 (F := Ideal) m c) (fun w => (dats (F := Ideal) m 0 c).arrAt w (cfgs 0).N)
      (Proc.devRef .tc main_v19) = G3 m c :=
    (Pipeline.withArrays_arr spec0 launch0.win.arr_inj c _ _ 8).trans (final m c)
  rw [hw]
  funext j
  obtain ⟨u, r, q, p, rfl⟩ : ∃ (u : Fin 1) (r q : Fin 768) (p : Fin 128), j = ix4 u r q p := ⟨j 0, j 1, j 2, j 3, eq_ix4 j⟩
  rw [broadcastInDim_lead_apply, G_apply]
  rfl

/-- The run of the idealized kernel program: it terminates without fault, its result holds the specification of the
    argument arrays, and the argument arrays end unchanged. -/
theorem run : θ_run (defs (F := Ideal)) (onTc (τ := τ) (main (F := Ideal))) ⟨m, fun _ => 0, ρ⟩ (fun r => ∀ c : Dev nD,
      r.2.mem ((c.tc : Thread nD τ).loc main_v20)
        = G (a0 m c) (a1 m c) (a2 m c) (a3 m c) (a4 m c) (a5 m c) (a6 m c) (a7 m c) (a8 m c) (a9 m c) (a10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.KernelIdeal.KerValue

end
-- ==== Proof.LibSeqChain.lean ====
/-
  Two facts about straight lines of host operations.

  `seq ops` runs the operations of a list one after the other, and `after ops V` is what the buffers hold afterwards, from
  contents `V`. Running `l₁ ++ l₂` is running `l₁` and then `l₂`, so
  * `after (l₁ ++ l₂) V = after l₂ (after l₁ V)` (`after_append`), and
  * a chain of straight lines is the straight line of their concatenation,
    `chain [seq l₁, …, seq lₙ] = seq (l₁ ++ … ++ lₙ)` (`chain_map_seq`).
  With the second, a host program that calls small outlined functions can be stated as a chain with one item per call
  and one per stretch between calls, each call's body rewritten to the straight line of its own operations, and the
  whole then read as ONE straight line; with the first, that line's effect is read stretch by stretch.
-/
import Idealize.ShloMosaic.Lib.StableHlo.Run
import Idealize.ShloMosaic.Lib.Pipeline.Regions

namespace Idealize.ShloMosaic.StableHlo

open Idealize.SL.Sem

/-- What the buffers hold after `l₁ ++ l₂` is what they hold after `l₂`, run from what they hold after `l₁`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A chain of straight lines is the straight line of their concatenation. -/
theorem chain_map_seq {nD : Nat} {τ : Topo} {sig : RefSig} {Val : EltTy → Type} {Λ : Labels} (ls : List (List (HloOp τ sig Val))) :
    Pipeline.chain (ls.map (seq (nD := nD) (Λ := Λ))) = seq ls.flatten := by
  induction ls with
  | nil => rfl
  | cons l ls ih => rw [List.map_cons, Pipeline.chain_cons, ih, List.flatten_cons, seq_append]

end Idealize.ShloMosaic.StableHlo
-- ==== Proof.RefRun.lean ====
/-
  The reference program's run.

  Its @main is a straight line of host operations except at two places, where it calls a small outlined function (the
  clip of an integer array between two scalars; the row lookup in a table, which itself calls a one-line select). A call
  executes the callee's operations on the caller's buffers, so the whole program is ONE straight line: the fifty-seven
  operations of @main with the six of the clip and the twenty-four of the lookup written out where the calls stand.
  The program is first read as a chain with one item per call and one per stretch between calls (both sides unfold to
  the same tree of requests), each call's body being the straight line of its own operations; a chain of straight lines
  is the straight line of the concatenation. Every weakly fair execution of a straight line terminates, each buffer
  ending at the fold of the operations' results over the launch contents.
-/
import proofs.«127354_j12618613915748_2_alg».proof.Proof.Gen.ReferenceIdeal
import proofs.«127354_j12618613915748_2_alg».proof.Proof.LibSeqChain
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations before the clip. -/
abbrev opsA : List (HloOp τ sig (Elt F)) :=
  [
    StableHlo.binary main_arg0 main_arg3 main_v0 ((fun l r => Host.dotGeneral dot_S1x768x384_S128x384_S1x768x128_2_1_01_0_n_n none l r) : (⟨S1x768x384, .f32⟩ : BufTy).Contents (Elt F) → (⟨S128x384, .f32⟩ : BufTy).Contents (Elt F) → (⟨S1x768x128, .f32⟩ : BufTy).Contents (Elt F)),
    StableHlo.unary main_arg4 main_v1 (broadcastInDim S1x1x128 ![2] bcast_S128_S1x1x128_2 : (⟨S128, .f32⟩ : BufTy).Contents (Elt F) → (⟨S1x1x128, .f32⟩ : BufTy).Contents (Elt F)),
    StableHlo.unary main_v1 main_v2 (broadcastInDim S1x768x128 ![0, 1, 2] bcast_S1x1x128_S1x768x128_0_1_2 : (⟨S1x1x128, .f32⟩ : BufTy).Contents (Elt F) → (⟨S1x768x128, .f32⟩ : BufTy).Contents (Elt F)),
    StableHlo.binary main_v0 main_v2 main_v3 (addf : (⟨S1x768x128, .f32⟩ : BufTy).Contents (Elt F) → (⟨S1x768x128, .f32⟩ : BufTy).Contents (Elt F) → (⟨S1x768x128, .f32⟩ : BufTy).Contents (Elt F)),
    StableHlo.binary main_arg0 main_arg5 main_v4 ((fun l r => Host.dotGeneral dot_S1x768x384_S128x384_S1x768x128_2_1_01_0_n_n none l r) : (⟨S1x768x384, .f32⟩ : BufTy).Contents (Elt F) → (⟨S128x384, .f32⟩ : BufTy).Contents (Elt F) → (⟨S1x768x128, .f32⟩ : BufTy).Contents (Elt F)),
    StableHlo.unary main_arg6 main_v5 (broadcastInDim S1x1x128 ![2] bcast_S128_S1x1x128_2 : (⟨S128, .f32⟩ : BufTy).Contents (Elt F) → (⟨S1x1x128, .f32⟩ : BufTy).Contents (Elt F)),
    StableHlo.unary main_v5 main_v6 (broadcastInDim S1x768x128 ![0, 1, 2] bcast_S1x1x128_S1x768x128_0_1_2 : (⟨S1x1x128, .f32⟩ : BufTy).Contents (Elt F) → (⟨S1x768x128, .f32⟩ : BufTy).Contents (Elt F)),
    StableHlo.binary main_v4 main_v6 main_v7 (addf : (⟨S1x768x128, .f32⟩ : BufTy).Contents (Elt F) → (⟨S1x768x128, .f32⟩ : BufTy).Contents (Elt F) → (⟨S1x768x128, .f32⟩ : BufTy).Contents (Elt F)),
    StableHlo.unary main_v3 main_v8 (broadcastInDim S1x768x1x128 ![0, 1, 3] bcast_S1x768x128_S1x768x1x128_0_1_3 : (⟨S1x768x128, .f32⟩ : BufTy).Contents (Elt F) → (⟨S1x768x1x128, .f32⟩ : BufTy).Contents (Elt F)),
    StableHlo.unary main_v7 main_v9 (broadcastInDim S1x1x768x128 ![0, 2, 3] bcast_S1x768x128_S1x1x768x128_0_2_3 : (⟨S1x768x128, .f32⟩ : BufTy).Contents (Elt F) → (⟨S1x1x768x128, .f32⟩ : BufTy).Contents (Elt F)),
    StableHlo.unary main_v8 main_v10 (broadcastInDim S1x768x768x128 ![0, 1, 2, 3] bcast_S1x768x1x128_S1x768x768x128_0_1_2_3 : (⟨S1x768x1x128, .f32⟩ : BufTy).Contents (Elt F) → (⟨S1x768x768x128, .f32⟩ : BufTy).Contents (Elt F)),
    StableHlo.unary main_v9 main_v11 (broadcastInDim S1x768x768x128 ![0, 1, 2, 3] bcast_S1x1x768x128_S1x768x768x128_0_1_2_3 : (⟨S1x1x768x128, .f32⟩ : BufTy).Contents (Elt F) → (⟨S1x768x768x128, .f32⟩ : BufTy).Contents (Elt F)),
    StableHlo.binary main_v10 main_v11 main_v12 (addf : (⟨S1x768x768x128, .f32⟩ : BufTy).Contents (Elt F) → (⟨S1x768x768x128, .f32⟩ : BufTy).Contents (Elt F) → (⟨S1x768x768x128, .f32⟩ : BufTy).Contents (Elt F)),
    StableHlo.nullary main_v13 (iotaInDim S768 32 0),
    StableHlo.unary main_v13 main_v14 (broadcastInDim S768x1 ![0] bcast_S768_S768x1_0 : (⟨S768, .i32⟩ : BufTy).Contents (Elt F) → (⟨S768x1, .i32⟩ : BufTy).Contents (Elt F)),
    StableHlo.unary main_v13 main_v15 (broadcastInDim S1x768 ![1] bcast_S768_S1x768_1 : (⟨S768, .i32⟩ : BufTy).Contents (Elt F) → (⟨S1x768, .i32⟩ : BufTy).Contents (Elt F)),
    StableHlo.unary main_v14 main_v16 (broadcastInDim S768x768 ![0, 1] bcast_S768x1_S768x768_0_1 : (⟨S768x1, .i32⟩ : BufTy).Contents (Elt F) → (⟨S768x768, .i32⟩ : BufTy).Contents (Elt F)),
    StableHlo.unary main_v15 main_v17 (broadcastInDim S768x768 ![0, 1] bcast_S1x768_S768x768_0_1 : (⟨S1x768, .i32⟩ : BufTy).Contents (Elt F) → (⟨S768x768, .i32⟩ : BufTy).Contents (Elt F)),
    StableHlo.binary main_v16 main_v17 main_v18 (subi : (⟨S768x768, .i32⟩ : BufTy).Contents (Elt F) → (⟨S768x768, .i32⟩ : BufTy).Contents (Elt F) → (⟨S768x768, .i32⟩ : BufTy).Contents (Elt F)),
    StableHlo.nullary main_c (constantI S_ 32 4294967264#32),
    StableHlo.nullary main_c_0 (constantI S_ 32 32#32) ]

/-- The clip's six operations, on the call's buffers. -/
abbrev opsClip : List (HloOp τ sig (Elt F)) :=
  [
    StableHlo.TRef.unary (.of main_c : StableHlo.TRef sig ⟨S_, .i32⟩) main_call0.v0 id,
    StableHlo.TRef.unary main_call0.v0 main_call0.v1 (broadcastInDim S768x768 ![] bcast_S_S768x768),
    StableHlo.TRef.binary main_call0.v1 (.of main_v18 : StableHlo.TRef sig ⟨S768x768, .i32⟩) main_call0.v2 maxsi,
    StableHlo.TRef.unary (.of main_c_0 : StableHlo.TRef sig ⟨S_, .i32⟩) main_call0.v3 id,
    StableHlo.TRef.unary main_call0.v3 main_call0.v4 (broadcastInDim S768x768 ![] bcast_S_S768x768),
    StableHlo.TRef.binary main_call0.v4 main_call0.v2 main_call0.v5 minsi ]

/-- @main's operations between the clip and the lookup. -/
abbrev opsB : List (HloOp τ sig (Elt F)) :=
  [
    StableHlo.nullary main_c_1 (constantI S_ 32 32#32),
    StableHlo.unary main_c_1 main_v20 (broadcastInDim S768x768 ![] bcast_S_S768x768 : (⟨S_, .i32⟩ : BufTy).Contents (Elt F) → (⟨S768x768, .i32⟩ : BufTy).Contents (Elt F)),
    StableHlo.binary main_v19 main_v20 main_v21 (addi : (⟨S768x768, .i32⟩ : BufTy).Contents (Elt F) → (⟨S768x768, .i32⟩ : BufTy).Contents (Elt F) → (⟨S768x768, .i32⟩ : BufTy).Contents (Elt F)),
    StableHlo.unary main_arg7 main_v22 ((transpose S65x128 [1, 0] · transposes_S128x65_S65x128_1_0) : (⟨S128x65, .f32⟩ : BufTy).Contents (Elt F) → (⟨S65x128, .f32⟩ : BufTy).Contents (Elt F)) ]

/-- The lookup's operations before its select. -/
abbrev opsTakeA : List (HloOp τ sig (Elt F)) :=
  [
    StableHlo.TRef.nullary main_call1.c (constantI S_ 32 0#32),
    StableHlo.TRef.unary main_call1.c main_call1.v0 (broadcastInDim S768x768 ![] bcast_S_S768x768),
    StableHlo.TRef.binary (.of main_v21 : StableHlo.TRef sig ⟨S768x768, .i32⟩) main_call1.v0 main_call1.v1 (cmpi .slt),
    StableHlo.TRef.nullary main_call1.c_0 (constantI S_ 32 65#32),
    StableHlo.TRef.unary main_call1.c_0 main_call1.v2 (broadcastInDim S768x768 ![] bcast_S_S768x768),
    StableHlo.TRef.binary (.of main_v21 : StableHlo.TRef sig ⟨S768x768, .i32⟩) main_call1.v2 main_call1.v3 addi ]

/-- The select the lookup calls. -/
abbrev opsWhere : List (HloOp τ sig (Elt F)) :=
  [
    StableHlo.TRef.ternary main_call1.v1 main_call1.v3 (.of main_v21 : StableHlo.TRef sig ⟨S768x768, .i32⟩) main_call1.call0.v0 select ]

/-- The lookup's operations after its select. -/
abbrev opsTakeB : List (HloOp τ sig (Elt F)) :=
  [
    StableHlo.TRef.unary main_call1.call0.v0 main_call1.v5 (broadcastInDim S768x768x1 ![0, 1] bcast_S768x768_S768x768x1_0_1),
    StableHlo.TRef.nullary main_call1.c_1 (constantI S1 32 64#32),
    StableHlo.TRef.nullary main_call1.c_2 (constantI S_ 32 0#32),
    StableHlo.TRef.unary main_call1.c_2 main_call1.v6 (broadcastInDim S768x768x1 ![] bcast_S_S768x768x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S768x768x1 ![0, 1, 2] bcast_S1x1x1_S768x768x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S768x768x1_S768x768_d2 h_S_),
    StableHlo.TRef.binary (.of main_v22 : StableHlo.TRef sig ⟨S65x128, .f32⟩) main_call1.v5 main_call1.v13 (fun x i => Host.gather gather_S65x128_S768x768x1_S768x768x128_2_0_n_n_0_2_1128 x i),
    StableHlo.TRef.unary main_call1.v12 main_call1.v14 (broadcastInDim S768x768x128 ![0, 1] bcast_S768x768_S768x768x128_0_1),
    StableHlo.TRef.nullary main_call1.cst (constant S_ .f32 0x7FC00000#32),
    StableHlo.TRef.unary main_call1.cst main_call1.v15 (broadcastInDim S768x768x128 ![] bcast_S_S768x768x128),
    StableHlo.TRef.ternary main_call1.v14 main_call1.v13 main_call1.v15 main_call1.v16 select ]

/-- @main's operations after the lookup. -/
abbrev opsC : List (HloOp τ sig (Elt F)) :=
  [
    StableHlo.unary main_arg8 main_v24 (broadcastInDim S1x1x128 ![2] bcast_S128_S1x1x128_2 : (⟨S128, .f32⟩ : BufTy).Contents (Elt F) → (⟨S1x1x128, .f32⟩ : BufTy).Contents (Elt F)),
    StableHlo.unary main_v24 main_v25 (broadcastInDim S768x768x128 ![0, 1, 2] bcast_S1x1x128_S768x768x128_0_1_2 : (⟨S1x1x128, .f32⟩ : BufTy).Contents (Elt F) → (⟨S768x768x128, .f32⟩ : BufTy).Contents (Elt F)),
    StableHlo.binary main_v23 main_v25 main_v26 (addf : (⟨S768x768x128, .f32⟩ : BufTy).Contents (Elt F) → (⟨S768x768x128, .f32⟩ : BufTy).Contents (Elt F) → (⟨S768x768x128, .f32⟩ : BufTy).Contents (Elt F)),
    StableHlo.unary main_v26 main_v27 (broadcastInDim S1x768x768x128 ![1, 2, 3] bcast_S768x768x128_S1x768x768x128_1_2_3 : (⟨S768x768x128, .f32⟩ : BufTy).Contents (Elt F) → (⟨S1x768x768x128, .f32⟩ : BufTy).Contents (Elt F)),
    StableHlo.binary main_v12 main_v27 main_v28 (addf : (⟨S1x768x768x128, .f32⟩ : BufTy).Contents (Elt F) → (⟨S1x768x768x128, .f32⟩ : BufTy).Contents (Elt F) → (⟨S1x768x768x128, .f32⟩ : BufTy).Contents (Elt F)),
    StableHlo.unary main_arg1 main_v29 (broadcastInDim S1x768x1x3 ![0, 1, 3] bcast_S1x768x3_S1x768x1x3_0_1_3 : (⟨S1x768x3, .f32⟩ : BufTy).Contents (Elt F) → (⟨S1x768x1x3, .f32⟩ : BufTy).Contents (Elt F)),
    StableHlo.unary main_arg1 main_v30 (broadcastInDim S1x1x768x3 ![0, 2, 3] bcast_S1x768x3_S1x1x768x3_0_2_3 : (⟨S1x768x3, .f32⟩ : BufTy).Contents (Elt F) → (⟨S1x1x768x3, .f32⟩ : BufTy).Contents (Elt F)),
    StableHlo.unary main_v29 main_v31 (broadcastInDim S1x768x768x3 ![0, 1, 2, 3] bcast_S1x768x1x3_S1x768x768x3_0_1_2_3 : (⟨S1x768x1x3, .f32⟩ : BufTy).Contents (Elt F) → (⟨S1x768x768x3, .f32⟩ : BufTy).Contents (Elt F)),
    StableHlo.unary main_v30 main_v32 (broadcastInDim S1x768x768x3 ![0, 1, 2, 3] bcast_S1x1x768x3_S1x768x768x3_0_1_2_3 : (⟨S1x1x768x3, .f32⟩ : BufTy).Contents (Elt F) → (⟨S1x768x768x3, .f32⟩ : BufTy).Contents (Elt F)),
    StableHlo.binary main_v31 main_v32 main_v33 (subf : (⟨S1x768x768x3, .f32⟩ : BufTy).Contents (Elt F) → (⟨S1x768x768x3, .f32⟩ : BufTy).Contents (Elt F) → (⟨S1x768x768x3, .f32⟩ : BufTy).Contents (Elt F)),
    StableHlo.binary main_v33 main_v33 main_v34 (mulf : (⟨S1x768x768x3, .f32⟩ : BufTy).Contents (Elt F) → (⟨S1x768x768x3, .f32⟩ : BufTy).Contents (Elt F) → (⟨S1x768x768x3, .f32⟩ : BufTy).Contents (Elt F)),
    StableHlo.nullary main_cst (constant S_ .f32 0x00000000#32),
    StableHlo.binary main_v34 main_cst main_v35 ((fun x v => Host.reduceAdd x v reducesTo_S1x768x768x3_S1x768x768_d3 h_S_) : (⟨S1x768x768x3, .f32⟩ : BufTy).Contents (Elt F) → (⟨S_, .f32⟩ : BufTy).Contents (Elt F) → (⟨S1x768x768, .f32⟩ : BufTy).Contents (Elt F)),
    StableHlo.nullary main_cst_2 (constant S_ .f32 0x2EDBE6FF#32),
    StableHlo.unary main_cst_2 main_v36 (broadcastInDim S1x768x768 ![] bcast_S_S1x768x768 : (⟨S_, .f32⟩ : BufTy).Contents (Elt F) → (⟨S1x768x768, .f32⟩ : BufTy).Contents (Elt F)),
    StableHlo.binary main_v36 main_v35 main_v37 (addf : (⟨S1x768x768, .f32⟩ : BufTy).Contents (Elt F) → (⟨S1x768x768, .f32⟩ : BufTy).Contents (Elt F) → (⟨S1x768x768, .f32⟩ : BufTy).Contents (Elt F)),
    StableHlo.unary main_v37 main_v38 (Host.sqrt : (⟨S1x768x768, .f32⟩ : BufTy).Contents (Elt F) → (⟨S1x768x768, .f32⟩ : BufTy).Contents (Elt F)),
    StableHlo.unary main_v38 main_v39 (broadcastInDim S1x768x768x1 ![0, 1, 2] bcast_S1x768x768_S1x768x768x1_0_1_2 : (⟨S1x768x768, .f32⟩ : BufTy).Contents (Elt F) → (⟨S1x768x768x1, .f32⟩ : BufTy).Contents (Elt F)),
    StableHlo.reshape main_arg9 main_v40 rfl shapeCasts_S128x1_S128,
    StableHlo.unary main_v40 main_v41 (broadcastInDim S1x1x1x128 ![3] bcast_S128_S1x1x1x128_3 : (⟨S128, .f32⟩ : BufTy).Contents (Elt F) → (⟨S1x1x1x128, .f32⟩ : BufTy).Contents (Elt F)),
    StableHlo.unary main_v39 main_v42 (broadcastInDim S1x768x768x128 ![0, 1, 2, 3] bcast_S1x768x768x1_S1x768x768x128_0_1_2_3 : (⟨S1x768x768x1, .f32⟩ : BufTy).Contents (Elt F) → (⟨S1x768x768x128, .f32⟩ : BufTy).Contents (Elt F)),
    StableHlo.unary main_v41 main_v43 (broadcastInDim S1x768x768x128 ![0, 1, 2, 3] bcast_S1x1x1x128_S1x768x768x128_0_1_2_3 : (⟨S1x1x1x128, .f32⟩ : BufTy).Contents (Elt F) → (⟨S1x768x768x128, .f32⟩ : BufTy).Contents (Elt F)),
    StableHlo.binary main_v42 main_v43 main_v44 (mulf : (⟨S1x768x768x128, .f32⟩ : BufTy).Contents (Elt F) → (⟨S1x768x768x128, .f32⟩ : BufTy).Contents (Elt F) → (⟨S1x768x768x128, .f32⟩ : BufTy).Contents (Elt F)),
    StableHlo.binary main_v28 main_v44 main_v45 (addf : (⟨S1x768x768x128, .f32⟩ : BufTy).Contents (Elt F) → (⟨S1x768x768x128, .f32⟩ : BufTy).Contents (Elt F) → (⟨S1x768x768x128, .f32⟩ : BufTy).Contents (Elt F)),
    StableHlo.unary main_arg10 main_v46 (broadcastInDim S1x1x1x128 ![3] bcast_S128_S1x1x1x128_3 : (⟨S128, .f32⟩ : BufTy).Contents (Elt F) → (⟨S1x1x1x128, .f32⟩ : BufTy).Contents (Elt F)),
    StableHlo.unary main_v46 main_v47 (broadcastInDim S1x768x768x128 ![0, 1, 2, 3] bcast_S1x1x1x128_S1x768x768x128_0_1_2_3 : (⟨S1x1x1x128, .f32⟩ : BufTy).Contents (Elt F) → (⟨S1x768x768x128, .f32⟩ : BufTy).Contents (Elt F)),
    StableHlo.binary main_v45 main_v47 main_v48 (addf : (⟨S1x768x768x128, .f32⟩ : BufTy).Contents (Elt F) → (⟨S1x768x768x128, .f32⟩ : BufTy).Contents (Elt F) → (⟨S1x768x768x128, .f32⟩ : BufTy).Contents (Elt F)),
    StableHlo.unary main_arg2 main_v49 (broadcastInDim S1x768x768x1 ![0, 1, 2] bcast_S1x768x768_S1x768x768x1_0_1_2 : (⟨S1x768x768, .f32⟩ : BufTy).Contents (Elt F) → (⟨S1x768x768x1, .f32⟩ : BufTy).Contents (Elt F)),
    StableHlo.unary main_v49 main_v50 (broadcastInDim S1x768x768x128 ![0, 1, 2, 3] bcast_S1x768x768x1_S1x768x768x128_0_1_2_3 : (⟨S1x768x768x1, .f32⟩ : BufTy).Contents (Elt F) → (⟨S1x768x768x128, .f32⟩ : BufTy).Contents (Elt F)),
    StableHlo.binary main_v48 main_v50 main_v51 (mulf : (⟨S1x768x768x128, .f32⟩ : BufTy).Contents (Elt F) → (⟨S1x768x768x128, .f32⟩ : BufTy).Contents (Elt F) → (⟨S1x768x768x128, .f32⟩ : BufTy).Contents (Elt F)) ]

/-- The program's operations in order, the calls written out. -/
abbrev ops : List (HloOp τ sig (Elt F)) :=
  [
    StableHlo.binary main_arg0 main_arg3 main_v0 ((fun l r => Host.dotGeneral dot_S1x768x384_S128x384_S1x768x128_2_1_01_0_n_n none l r) : (⟨S1x768x384, .f32⟩ : BufTy).Contents (Elt F) → (⟨S128x384, .f32⟩ : BufTy).Contents (Elt F) → (⟨S1x768x128, .f32⟩ : BufTy).Contents (Elt F)),
    StableHlo.unary main_arg4 main_v1 (broadcastInDim S1x1x128 ![2] bcast_S128_S1x1x128_2 : (⟨S128, .f32⟩ : BufTy).Contents (Elt F) → (⟨S1x1x128, .f32⟩ : BufTy).Contents (Elt F)),
    StableHlo.unary main_v1 main_v2 (broadcastInDim S1x768x128 ![0, 1, 2] bcast_S1x1x128_S1x768x128_0_1_2 : (⟨S1x1x128, .f32⟩ : BufTy).Contents (Elt F) → (⟨S1x768x128, .f32⟩ : BufTy).Contents (Elt F)),
    StableHlo.binary main_v0 main_v2 main_v3 (addf : (⟨S1x768x128, .f32⟩ : BufTy).Contents (Elt F) → (⟨S1x768x128, .f32⟩ : BufTy).Contents (Elt F) → (⟨S1x768x128, .f32⟩ : BufTy).Contents (Elt F)),
    StableHlo.binary main_arg0 main_arg5 main_v4 ((fun l r => Host.dotGeneral dot_S1x768x384_S128x384_S1x768x128_2_1_01_0_n_n none l r) : (⟨S1x768x384, .f32⟩ : BufTy).Contents (Elt F) → (⟨S128x384, .f32⟩ : BufTy).Contents (Elt F) → (⟨S1x768x128, .f32⟩ : BufTy).Contents (Elt F)),
    StableHlo.unary main_arg6 main_v5 (broadcastInDim S1x1x128 ![2] bcast_S128_S1x1x128_2 : (⟨S128, .f32⟩ : BufTy).Contents (Elt F) → (⟨S1x1x128, .f32⟩ : BufTy).Contents (Elt F)),
    StableHlo.unary main_v5 main_v6 (broadcastInDim S1x768x128 ![0, 1, 2] bcast_S1x1x128_S1x768x128_0_1_2 : (⟨S1x1x128, .f32⟩ : BufTy).Contents (Elt F) → (⟨S1x768x128, .f32⟩ : BufTy).Contents (Elt F)),
    StableHlo.binary main_v4 main_v6 main_v7 (addf : (⟨S1x768x128, .f32⟩ : BufTy).Contents (Elt F) → (⟨S1x768x128, .f32⟩ : BufTy).Contents (Elt F) → (⟨S1x768x128, .f32⟩ : BufTy).Contents (Elt F)),
    StableHlo.unary main_v3 main_v8 (broadcastInDim S1x768x1x128 ![0, 1, 3] bcast_S1x768x128_S1x768x1x128_0_1_3 : (⟨S1x768x128, .f32⟩ : BufTy).Contents (Elt F) → (⟨S1x768x1x128, .f32⟩ : BufTy).Contents (Elt F)),
    StableHlo.unary main_v7 main_v9 (broadcastInDim S1x1x768x128 ![0, 2, 3] bcast_S1x768x128_S1x1x768x128_0_2_3 : (⟨S1x768x128, .f32⟩ : BufTy).Contents (Elt F) → (⟨S1x1x768x128, .f32⟩ : BufTy).Contents (Elt F)),
    StableHlo.unary main_v8 main_v10 (broadcastInDim S1x768x768x128 ![0, 1, 2, 3] bcast_S1x768x1x128_S1x768x768x128_0_1_2_3 : (⟨S1x768x1x128, .f32⟩ : BufTy).Contents (Elt F) → (⟨S1x768x768x128, .f32⟩ : BufTy).Contents (Elt F)),
    StableHlo.unary main_v9 main_v11 (broadcastInDim S1x768x768x128 ![0, 1, 2, 3] bcast_S1x1x768x128_S1x768x768x128_0_1_2_3 : (⟨S1x1x768x128, .f32⟩ : BufTy).Contents (Elt F) → (⟨S1x768x768x128, .f32⟩ : BufTy).Contents (Elt F)),
    StableHlo.binary main_v10 main_v11 main_v12 (addf : (⟨S1x768x768x128, .f32⟩ : BufTy).Contents (Elt F) → (⟨S1x768x768x128, .f32⟩ : BufTy).Contents (Elt F) → (⟨S1x768x768x128, .f32⟩ : BufTy).Contents (Elt F)),
    StableHlo.nullary main_v13 (iotaInDim S768 32 0),
    StableHlo.unary main_v13 main_v14 (broadcastInDim S768x1 ![0] bcast_S768_S768x1_0 : (⟨S768, .i32⟩ : BufTy).Contents (Elt F) → (⟨S768x1, .i32⟩ : BufTy).Contents (Elt F)),
    StableHlo.unary main_v13 main_v15 (broadcastInDim S1x768 ![1] bcast_S768_S1x768_1 : (⟨S768, .i32⟩ : BufTy).Contents (Elt F) → (⟨S1x768, .i32⟩ : BufTy).Contents (Elt F)),
    StableHlo.unary main_v14 main_v16 (broadcastInDim S768x768 ![0, 1] bcast_S768x1_S768x768_0_1 : (⟨S768x1, .i32⟩ : BufTy).Contents (Elt F) → (⟨S768x768, .i32⟩ : BufTy).Contents (Elt F)),
    StableHlo.unary main_v15 main_v17 (broadcastInDim S768x768 ![0, 1] bcast_S1x768_S768x768_0_1 : (⟨S1x768, .i32⟩ : BufTy).Contents (Elt F) → (⟨S768x768, .i32⟩ : BufTy).Contents (Elt F)),
    StableHlo.binary main_v16 main_v17 main_v18 (subi : (⟨S768x768, .i32⟩ : BufTy).Contents (Elt F) → (⟨S768x768, .i32⟩ : BufTy).Contents (Elt F) → (⟨S768x768, .i32⟩ : BufTy).Contents (Elt F)),
    StableHlo.nullary main_c (constantI S_ 32 4294967264#32),
    StableHlo.nullary main_c_0 (constantI S_ 32 32#32),
    StableHlo.TRef.unary (.of main_c : StableHlo.TRef sig ⟨S_, .i32⟩) main_call0.v0 id,
    StableHlo.TRef.unary main_call0.v0 main_call0.v1 (broadcastInDim S768x768 ![] bcast_S_S768x768),
    StableHlo.TRef.binary main_call0.v1 (.of main_v18 : StableHlo.TRef sig ⟨S768x768, .i32⟩) main_call0.v2 maxsi,
    StableHlo.TRef.unary (.of main_c_0 : StableHlo.TRef sig ⟨S_, .i32⟩) main_call0.v3 id,
    StableHlo.TRef.unary main_call0.v3 main_call0.v4 (broadcastInDim S768x768 ![] bcast_S_S768x768),
    StableHlo.TRef.binary main_call0.v4 main_call0.v2 main_call0.v5 minsi,
    StableHlo.nullary main_c_1 (constantI S_ 32 32#32),
    StableHlo.unary main_c_1 main_v20 (broadcastInDim S768x768 ![] bcast_S_S768x768 : (⟨S_, .i32⟩ : BufTy).Contents (Elt F) → (⟨S768x768, .i32⟩ : BufTy).Contents (Elt F)),
    StableHlo.binary main_v19 main_v20 main_v21 (addi : (⟨S768x768, .i32⟩ : BufTy).Contents (Elt F) → (⟨S768x768, .i32⟩ : BufTy).Contents (Elt F) → (⟨S768x768, .i32⟩ : BufTy).Contents (Elt F)),
    StableHlo.unary main_arg7 main_v22 ((transpose S65x128 [1, 0] · transposes_S128x65_S65x128_1_0) : (⟨S128x65, .f32⟩ : BufTy).Contents (Elt F) → (⟨S65x128, .f32⟩ : BufTy).Contents (Elt F)),
    StableHlo.TRef.nullary main_call1.c (constantI S_ 32 0#32),
    StableHlo.TRef.unary main_call1.c main_call1.v0 (broadcastInDim S768x768 ![] bcast_S_S768x768),
    StableHlo.TRef.binary (.of main_v21 : StableHlo.TRef sig ⟨S768x768, .i32⟩) main_call1.v0 main_call1.v1 (cmpi .slt),
    StableHlo.TRef.nullary main_call1.c_0 (constantI S_ 32 65#32),
    StableHlo.TRef.unary main_call1.c_0 main_call1.v2 (broadcastInDim S768x768 ![] bcast_S_S768x768),
    StableHlo.TRef.binary (.of main_v21 : StableHlo.TRef sig ⟨S768x768, .i32⟩) main_call1.v2 main_call1.v3 addi,
    StableHlo.TRef.ternary main_call1.v1 main_call1.v3 (.of main_v21 : StableHlo.TRef sig ⟨S768x768, .i32⟩) main_call1.call0.v0 select,
    StableHlo.TRef.unary main_call1.call0.v0 main_call1.v5 (broadcastInDim S768x768x1 ![0, 1] bcast_S768x768_S768x768x1_0_1),
    StableHlo.TRef.nullary main_call1.c_1 (constantI S1 32 64#32),
    StableHlo.TRef.nullary main_call1.c_2 (constantI S_ 32 0#32),
    StableHlo.TRef.unary main_call1.c_2 main_call1.v6 (broadcastInDim S768x768x1 ![] bcast_S_S768x768x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S768x768x1 ![0, 1, 2] bcast_S1x1x1_S768x768x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S768x768x1_S768x768_d2 h_S_),
    StableHlo.TRef.binary (.of main_v22 : StableHlo.TRef sig ⟨S65x128, .f32⟩) main_call1.v5 main_call1.v13 (fun x i => Host.gather gather_S65x128_S768x768x1_S768x768x128_2_0_n_n_0_2_1128 x i),
    StableHlo.TRef.unary main_call1.v12 main_call1.v14 (broadcastInDim S768x768x128 ![0, 1] bcast_S768x768_S768x768x128_0_1),
    StableHlo.TRef.nullary main_call1.cst (constant S_ .f32 0x7FC00000#32),
    StableHlo.TRef.unary main_call1.cst main_call1.v15 (broadcastInDim S768x768x128 ![] bcast_S_S768x768x128),
    StableHlo.TRef.ternary main_call1.v14 main_call1.v13 main_call1.v15 main_call1.v16 select,
    StableHlo.unary main_arg8 main_v24 (broadcastInDim S1x1x128 ![2] bcast_S128_S1x1x128_2 : (⟨S128, .f32⟩ : BufTy).Contents (Elt F) → (⟨S1x1x128, .f32⟩ : BufTy).Contents (Elt F)),
    StableHlo.unary main_v24 main_v25 (broadcastInDim S768x768x128 ![0, 1, 2] bcast_S1x1x128_S768x768x128_0_1_2 : (⟨S1x1x128, .f32⟩ : BufTy).Contents (Elt F) → (⟨S768x768x128, .f32⟩ : BufTy).Contents (Elt F)),
    StableHlo.binary main_v23 main_v25 main_v26 (addf : (⟨S768x768x128, .f32⟩ : BufTy).Contents (Elt F) → (⟨S768x768x128, .f32⟩ : BufTy).Contents (Elt F) → (⟨S768x768x128, .f32⟩ : BufTy).Contents (Elt F)),
    StableHlo.unary main_v26 main_v27 (broadcastInDim S1x768x768x128 ![1, 2, 3] bcast_S768x768x128_S1x768x768x128_1_2_3 : (⟨S768x768x128, .f32⟩ : BufTy).Contents (Elt F) → (⟨S1x768x768x128, .f32⟩ : BufTy).Contents (Elt F)),
    StableHlo.binary main_v12 main_v27 main_v28 (addf : (⟨S1x768x768x128, .f32⟩ : BufTy).Contents (Elt F) → (⟨S1x768x768x128, .f32⟩ : BufTy).Contents (Elt F) → (⟨S1x768x768x128, .f32⟩ : BufTy).Contents (Elt F)),
    StableHlo.unary main_arg1 main_v29 (broadcastInDim S1x768x1x3 ![0, 1, 3] bcast_S1x768x3_S1x768x1x3_0_1_3 : (⟨S1x768x3, .f32⟩ : BufTy).Contents (Elt F) → (⟨S1x768x1x3, .f32⟩ : BufTy).Contents (Elt F)),
    StableHlo.unary main_arg1 main_v30 (broadcastInDim S1x1x768x3 ![0, 2, 3] bcast_S1x768x3_S1x1x768x3_0_2_3 : (⟨S1x768x3, .f32⟩ : BufTy).Contents (Elt F) → (⟨S1x1x768x3, .f32⟩ : BufTy).Contents (Elt F)),
    StableHlo.unary main_v29 main_v31 (broadcastInDim S1x768x768x3 ![0, 1, 2, 3] bcast_S1x768x1x3_S1x768x768x3_0_1_2_3 : (⟨S1x768x1x3, .f32⟩ : BufTy).Contents (Elt F) → (⟨S1x768x768x3, .f32⟩ : BufTy).Contents (Elt F)),
    StableHlo.unary main_v30 main_v32 (broadcastInDim S1x768x768x3 ![0, 1, 2, 3] bcast_S1x1x768x3_S1x768x768x3_0_1_2_3 : (⟨S1x1x768x3, .f32⟩ : BufTy).Contents (Elt F) → (⟨S1x768x768x3, .f32⟩ : BufTy).Contents (Elt F)),
    StableHlo.binary main_v31 main_v32 main_v33 (subf : (⟨S1x768x768x3, .f32⟩ : BufTy).Contents (Elt F) → (⟨S1x768x768x3, .f32⟩ : BufTy).Contents (Elt F) → (⟨S1x768x768x3, .f32⟩ : BufTy).Contents (Elt F)),
    StableHlo.binary main_v33 main_v33 main_v34 (mulf : (⟨S1x768x768x3, .f32⟩ : BufTy).Contents (Elt F) → (⟨S1x768x768x3, .f32⟩ : BufTy).Contents (Elt F) → (⟨S1x768x768x3, .f32⟩ : BufTy).Contents (Elt F)),
    StableHlo.nullary main_cst (constant S_ .f32 0x00000000#32),
    StableHlo.binary main_v34 main_cst main_v35 ((fun x v => Host.reduceAdd x v reducesTo_S1x768x768x3_S1x768x768_d3 h_S_) : (⟨S1x768x768x3, .f32⟩ : BufTy).Contents (Elt F) → (⟨S_, .f32⟩ : BufTy).Contents (Elt F) → (⟨S1x768x768, .f32⟩ : BufTy).Contents (Elt F)),
    StableHlo.nullary main_cst_2 (constant S_ .f32 0x2EDBE6FF#32),
    StableHlo.unary main_cst_2 main_v36 (broadcastInDim S1x768x768 ![] bcast_S_S1x768x768 : (⟨S_, .f32⟩ : BufTy).Contents (Elt F) → (⟨S1x768x768, .f32⟩ : BufTy).Contents (Elt F)),
    StableHlo.binary main_v36 main_v35 main_v37 (addf : (⟨S1x768x768, .f32⟩ : BufTy).Contents (Elt F) → (⟨S1x768x768, .f32⟩ : BufTy).Contents (Elt F) → (⟨S1x768x768, .f32⟩ : BufTy).Contents (Elt F)),
    StableHlo.unary main_v37 main_v38 (Host.sqrt : (⟨S1x768x768, .f32⟩ : BufTy).Contents (Elt F) → (⟨S1x768x768, .f32⟩ : BufTy).Contents (Elt F)),
    StableHlo.unary main_v38 main_v39 (broadcastInDim S1x768x768x1 ![0, 1, 2] bcast_S1x768x768_S1x768x768x1_0_1_2 : (⟨S1x768x768, .f32⟩ : BufTy).Contents (Elt F) → (⟨S1x768x768x1, .f32⟩ : BufTy).Contents (Elt F)),
    StableHlo.reshape main_arg9 main_v40 rfl shapeCasts_S128x1_S128,
    StableHlo.unary main_v40 main_v41 (broadcastInDim S1x1x1x128 ![3] bcast_S128_S1x1x1x128_3 : (⟨S128, .f32⟩ : BufTy).Contents (Elt F) → (⟨S1x1x1x128, .f32⟩ : BufTy).Contents (Elt F)),
    StableHlo.unary main_v39 main_v42 (broadcastInDim S1x768x768x128 ![0, 1, 2, 3] bcast_S1x768x768x1_S1x768x768x128_0_1_2_3 : (⟨S1x768x768x1, .f32⟩ : BufTy).Contents (Elt F) → (⟨S1x768x768x128, .f32⟩ : BufTy).Contents (Elt F)),
    StableHlo.unary main_v41 main_v43 (broadcastInDim S1x768x768x128 ![0, 1, 2, 3] bcast_S1x1x1x128_S1x768x768x128_0_1_2_3 : (⟨S1x1x1x128, .f32⟩ : BufTy).Contents (Elt F) → (⟨S1x768x768x128, .f32⟩ : BufTy).Contents (Elt F)),
    StableHlo.binary main_v42 main_v43 main_v44 (mulf : (⟨S1x768x768x128, .f32⟩ : BufTy).Contents (Elt F) → (⟨S1x768x768x128, .f32⟩ : BufTy).Contents (Elt F) → (⟨S1x768x768x128, .f32⟩ : BufTy).Contents (Elt F)),
    StableHlo.binary main_v28 main_v44 main_v45 (addf : (⟨S1x768x768x128, .f32⟩ : BufTy).Contents (Elt F) → (⟨S1x768x768x128, .f32⟩ : BufTy).Contents (Elt F) → (⟨S1x768x768x128, .f32⟩ : BufTy).Contents (Elt F)),
    StableHlo.unary main_arg10 main_v46 (broadcastInDim S1x1x1x128 ![3] bcast_S128_S1x1x1x128_3 : (⟨S128, .f32⟩ : BufTy).Contents (Elt F) → (⟨S1x1x1x128, .f32⟩ : BufTy).Contents (Elt F)),
    StableHlo.unary main_v46 main_v47 (broadcastInDim S1x768x768x128 ![0, 1, 2, 3] bcast_S1x1x1x128_S1x768x768x128_0_1_2_3 : (⟨S1x1x1x128, .f32⟩ : BufTy).Contents (Elt F) → (⟨S1x768x768x128, .f32⟩ : BufTy).Contents (Elt F)),
    StableHlo.binary main_v45 main_v47 main_v48 (addf : (⟨S1x768x768x128, .f32⟩ : BufTy).Contents (Elt F) → (⟨S1x768x768x128, .f32⟩ : BufTy).Contents (Elt F) → (⟨S1x768x768x128, .f32⟩ : BufTy).Contents (Elt F)),
    StableHlo.unary main_arg2 main_v49 (broadcastInDim S1x768x768x1 ![0, 1, 2] bcast_S1x768x768_S1x768x768x1_0_1_2 : (⟨S1x768x768, .f32⟩ : BufTy).Contents (Elt F) → (⟨S1x768x768x1, .f32⟩ : BufTy).Contents (Elt F)),
    StableHlo.unary main_v49 main_v50 (broadcastInDim S1x768x768x128 ![0, 1, 2, 3] bcast_S1x768x768x1_S1x768x768x128_0_1_2_3 : (⟨S1x768x768x1, .f32⟩ : BufTy).Contents (Elt F) → (⟨S1x768x768x128, .f32⟩ : BufTy).Contents (Elt F)),
    StableHlo.binary main_v48 main_v50 main_v51 (mulf : (⟨S1x768x768x128, .f32⟩ : BufTy).Contents (Elt F) → (⟨S1x768x768x128, .f32⟩ : BufTy).Contents (Elt F) → (⟨S1x768x768x128, .f32⟩ : BufTy).Contents (Elt F)) ]

/-- The whole line is the stretches and the callees' lines one after the other. -/
theorem ops_flat : (ops : List (HloOp τ sig (Elt F))) = [opsA, opsClip, opsB, [opsTakeA, opsWhere, opsTakeB].flatten, opsC].flatten := by
  chain_rfl

/-- @main as a chain: one item per stretch, one per call; the lookup's body is itself such a chain. -/
theorem main_chain (c : Dev nD) :
    main (F := F) c = Pipeline.chain ([opsA, opsClip, opsB, [opsTakeA, opsWhere, opsTakeB].flatten, opsC].map seq) := by
  rw [show ([opsA, opsClip, opsB, [opsTakeA, opsWhere, opsTakeB].flatten, opsC].map (seq (nD := nD) (Λ := Pipeline.Sig Λ₀ (Fin 0) fun p => (pcfgs (F := F) p).Adm)))
      = [seq opsA, seq opsClip, seq opsB, seq [opsTakeA, opsWhere, opsTakeB].flatten, seq opsC] from rfl,
    ← chain_map_seq [opsTakeA, opsWhere, opsTakeB]]
  chain_rfl

/-- @main is the straight line. -/
theorem main_eq (c : Dev nD) : main (F := F) c = seq ops := by
  rw [main_chain c, chain_map_seq, ← ops_flat]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., unary_bufs_sub .., unary_bufs_sub .., binary_bufs_sub .., binary_bufs_sub .., unary_bufs_sub ..,
    unary_bufs_sub .., binary_bufs_sub .., unary_bufs_sub .., unary_bufs_sub .., unary_bufs_sub .., unary_bufs_sub ..,
    binary_bufs_sub .., nullary_bufs_sub .., unary_bufs_sub .., unary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., unary_bufs_sub .., binary_bufs_sub .., unary_bufs_sub ..,
    unary_bufs_sub .., unary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    reshape_bufs_sub .., unary_bufs_sub .., unary_bufs_sub .., unary_bufs_sub .., binary_bufs_sub .., binary_bufs_sub ..,
    unary_bufs_sub .., unary_bufs_sub .., binary_bufs_sub .., unary_bufs_sub .., unary_bufs_sub .., binary_bufs_sub ..⟩

/-- Every buffer of every device ends at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference's result as ONE function of its eleven argument arrays: the composition of its host operations,
  stage by stage, at the extended reals.

  * projArr s W b : the projection of the features, (s · Wᵀ) + b, an array [1, 768, 128];
  * posDiff, binArr : the integer array r - c over the 768 × 768 pairs, and its clip to [-32, 32] shifted by 32;
  * wrapIdx, startIdx, inRange, takeArr : the row lookup in a 65-row table at an integer array - a negative index
    moved up by 65, the index array given a unit last axis, the mask "0 ≤ index ≤ 64" folded over that unit axis, the
    rows gathered, and the rows outside the mask replaced by a constant;
  * relArr : the looked-up rows of the transposed relative-position table plus its bias;
  * diffArr, distArr : the coordinate differences of the translations over all pairs, and the square root of the
    small constant plus the sum of their three squares;
  * refTerm : the sum of the four contributions, times the pair mask.
-/
import proofs.«127354_j12618613915748_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- The projection of every position's features onto the 128 channels, plus the bias spread over the positions. -/
def projArr (s : FVec Ideal S1x768x384 .f32) (W : FVec Ideal S128x384 .f32) (b : FVec Ideal S128 .f32) : FVec Ideal S1x768x128 .f32 :=
  addf (Host.dotGeneral dot_S1x768x384_S128x384_S1x768x128_2_1_01_0_n_n none s W)
    (broadcastInDim S1x768x128 ![0, 1, 2] bcast_S1x1x128_S1x768x128_0_1_2 (broadcastInDim S1x1x128 ![2] bcast_S128_S1x1x128_2 b))

/-- The first summand: P_i of the row position plus P_j of the column position, over all pairs. -/
def pairArr (s : FVec Ideal S1x768x384 .f32) (Wi : FVec Ideal S128x384 .f32) (bi : FVec Ideal S128 .f32)
    (Wj : FVec Ideal S128x384 .f32) (bj : FVec Ideal S128 .f32) : FVec Ideal S1x768x768x128 .f32 :=
  addf
    (broadcastInDim S1x768x768x128 ![0, 1, 2, 3] bcast_S1x768x1x128_S1x768x768x128_0_1_2_3
      (broadcastInDim S1x768x1x128 ![0, 1, 3] bcast_S1x768x128_S1x768x1x128_0_1_3 (projArr s Wi bi)))
    (broadcastInDim S1x768x768x128 ![0, 1, 2, 3] bcast_S1x1x768x128_S1x768x768x128_0_1_2_3
      (broadcastInDim S1x1x768x128 ![0, 2, 3] bcast_S1x768x128_S1x1x768x128_0_2_3 (projArr s Wj bj)))

/-- The integer array whose entry (r, c) is the word of r minus the word of c. -/
def posDiff : IVec S768x768 32 :=
  subi
    (broadcastInDim S768x768 ![0, 1] bcast_S768x1_S768x768_0_1 (broadcastInDim S768x1 ![0] bcast_S768_S768x1_0 (iotaInDim S768 32 0)))
    (broadcastInDim S768x768 ![0, 1] bcast_S1x768_S768x768_0_1 (broadcastInDim S1x768 ![1] bcast_S768_S1x768_1 (iotaInDim S768 32 0)))

/-- The difference clipped below at -32, above at 32, then shifted by 32. -/
def binArr : IVec S768x768 32 :=
  addi
    (minsi (broadcastInDim S768x768 ![] bcast_S_S768x768 (constantI S_ 32 32#32))
      (maxsi (broadcastInDim S768x768 ![] bcast_S_S768x768 (constantI S_ 32 4294967264#32)) posDiff))
    (broadcastInDim S768x768 ![] bcast_S_S768x768 (constantI S_ 32 32#32))

/-- An index array with its negative entries moved up by 65. -/
def wrapIdx (b : IVec S768x768 32) : IVec S768x768 32 :=
  select (cmpi .slt b (broadcastInDim S768x768 ![] bcast_S_S768x768 (constantI S_ 32 0#32)))
    (addi b (broadcastInDim S768x768 ![] bcast_S_S768x768 (constantI S_ 32 65#32))) b

/-- The same with a unit last axis: the array of start indices of the row lookup. -/
def startIdx (b : IVec S768x768 32) : IVec S768x768x1 32 :=
  broadcastInDim S768x768x1 ![0, 1] bcast_S768x768_S768x768x1_0_1 (wrapIdx b)

/-- The mask "0 ≤ index ≤ 64" of a start-index array, folded by "and" over its unit last axis. -/
def inRange (i : IVec S768x768x1 32) : IVec S768x768 1 :=
  Host.reduce IntOp.andi
    (andi (cmpi .sge i (broadcastInDim S768x768x1 ![] bcast_S_S768x768x1 (constantI S_ 32 0#32)))
      (cmpi .sle i (broadcastInDim S768x768x1 ![0, 1, 2] bcast_S1x1x1_S768x768x1_0_1_2
        (broadcastInDim S1x1x1 ![2] bcast_S1_S1x1x1_2 (constantI S1 32 64#32)))))
    (constantI S_ 1 1#1) reducesTo_S768x768x1_S768x768_d2 h_S_

/-- The rows of a 65-row table looked up at an integer array, the rows of out-of-range indices replaced by a constant. -/
def takeArr (tbl : FVec Ideal S65x128 .f32) (b : IVec S768x768 32) : FVec Ideal S768x768x128 .f32 :=
  select (broadcastInDim S768x768x128 ![0, 1] bcast_S768x768_S768x768x128_0_1 (inRange (startIdx b)))
    (Host.gather gather_S65x128_S768x768x1_S768x768x128_2_0_n_n_0_2_1128 tbl (startIdx b))
    (broadcastInDim S768x768x128 ![] bcast_S_S768x768x128 (constant S_ .f32 0x7FC00000#32))

/-- The second summand: row bin(r, c) of the transposed relative-position table, plus its bias. -/
def relArr (Wrel : FVec Ideal S128x65 .f32) (brel : FVec Ideal S128 .f32) : FVec Ideal S768x768x128 .f32 :=
  addf (takeArr (transpose S65x128 [1, 0] Wrel transposes_S128x65_S65x128_1_0) binArr)
    (broadcastInDim S768x768x128 ![0, 1, 2] bcast_S1x1x128_S768x768x128_0_1_2 (broadcastInDim S1x1x128 ![2] bcast_S128_S1x1x128_2 brel))

/-- The coordinate differences of the translations of all pairs of positions. -/
def diffArr (tr : FVec Ideal S1x768x3 .f32) : FVec Ideal S1x768x768x3 .f32 :=
  subf
    (broadcastInDim S1x768x768x3 ![0, 1, 2, 3] bcast_S1x768x1x3_S1x768x768x3_0_1_2_3
      (broadcastInDim S1x768x1x3 ![0, 1, 3] bcast_S1x768x3_S1x768x1x3_0_1_3 tr))
    (broadcastInDim S1x768x768x3 ![0, 1, 2, 3] bcast_S1x1x768x3_S1x768x768x3_0_1_2_3
      (broadcastInDim S1x1x768x3 ![0, 2, 3] bcast_S1x768x3_S1x1x768x3_0_2_3 tr))

/-- The distances: the square root of the small constant plus the sum of the three squared differences. -/
def distArr (tr : FVec Ideal S1x768x3 .f32) : FVec Ideal S1x768x768 .f32 :=
  Host.sqrt
    (addf (broadcastInDim S1x768x768 ![] bcast_S_S1x768x768 (constant S_ .f32 0x2EDBE6FF#32))
      (Host.reduceAdd (mulf (diffArr tr) (diffArr tr)) (constant S_ .f32 0x00000000#32) reducesTo_S1x768x768x3_S1x768x768_d3 h_S_))

/-- The reference's result as a function of its arguments. -/
def refTerm (s : FVec Ideal S1x768x384 .f32) (tr : FVec Ideal S1x768x3 .f32) (pm : FVec Ideal S1x768x768 .f32)
    (Wi : FVec Ideal S128x384 .f32) (bi : FVec Ideal S128 .f32) (Wj : FVec Ideal S128x384 .f32) (bj : FVec Ideal S128 .f32)
    (Wrel : FVec Ideal S128x65 .f32) (brel : FVec Ideal S128 .f32) (Wt : FVec Ideal S128x1 .f32) (bt : FVec Ideal S128 .f32) :
    FVec Ideal S1x768x768x128 .f32 :=
  mulf
    (addf
      (addf
        (addf (pairArr s Wi bi Wj bj)
          (broadcastInDim S1x768x768x128 ![1, 2, 3] bcast_S768x768x128_S1x768x768x128_1_2_3 (relArr Wrel brel)))
        (mulf
          (broadcastInDim S1x768x768x128 ![0, 1, 2, 3] bcast_S1x768x768x1_S1x768x768x128_0_1_2_3
            (broadcastInDim S1x768x768x1 ![0, 1, 2] bcast_S1x768x768_S1x768x768x1_0_1_2 (distArr tr)))
          (broadcastInDim S1x768x768x128 ![0, 1, 2, 3] bcast_S1x1x1x128_S1x768x768x128_0_1_2_3
            (broadcastInDim S1x1x1x128 ![3] bcast_S128_S1x1x1x128_3 (shapeCast S128 Wt shapeCasts_S128x1_S128)))))
      (broadcastInDim S1x768x768x128 ![0, 1, 2, 3] bcast_S1x1x1x128_S1x768x768x128_0_1_2_3
        (broadcastInDim S1x1x1x128 ![3] bcast_S128_S1x1x1x128_3 bt)))
    (broadcastInDim S1x768x768x128 ![0, 1, 2, 3] bcast_S1x768x768x1_S1x768x768x128_0_1_2_3
      (broadcastInDim S1x768x768x1 ![0, 1, 2] bcast_S1x768x768_S1x768x768x1_0_1_2 pm))

end Cert.ReferenceIdeal.RefValue

end
-- ==== Proof.RefRunVal.lean ====
/-
  The value the reference's run leaves in its result buffer.

  The fold of the straight line's operations over any contents, read at the result buffer, is the composed function
  refTerm of the contents of the eleven argument buffers: each operation's result at its own buffer is its function of
  its operands' contents, and at any other buffer what was there; the contents carried through the callees' typed
  references are carried along equations between equal types, so they are unchanged (the two sides then unfold to the
  same term). No operation writes an argument
  buffer, so each argument ends as it began.
-/
import proofs.«127354_j12618613915748_2_alg».proof.Proof.RefRun
import proofs.«127354_j12618613915748_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The fold at the result buffer is the composed function of the arguments' contents. -/
theorem out_eq (V : Valuation τ sig (Elt Ideal)) :
    after (ops (F := Ideal)) V (main_v51 : DevRef τ sig)
      = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp
  chain_rfl

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

theorem arg3_eq (V : Valuation τ sig (Elt Ideal)) :
    after (ops (F := Ideal)) V (main_arg3 : DevRef τ sig) = V (main_arg3 : DevRef τ sig) := by
  after_results_simp

theorem arg4_eq (V : Valuation τ sig (Elt Ideal)) :
    after (ops (F := Ideal)) V (main_arg4 : DevRef τ sig) = V (main_arg4 : DevRef τ sig) := by
  after_results_simp

theorem arg5_eq (V : Valuation τ sig (Elt Ideal)) :
    after (ops (F := Ideal)) V (main_arg5 : DevRef τ sig) = V (main_arg5 : DevRef τ sig) := by
  after_results_simp

theorem arg6_eq (V : Valuation τ sig (Elt Ideal)) :
    after (ops (F := Ideal)) V (main_arg6 : DevRef τ sig) = V (main_arg6 : DevRef τ sig) := by
  after_results_simp

theorem arg7_eq (V : Valuation τ sig (Elt Ideal)) :
    after (ops (F := Ideal)) V (main_arg7 : DevRef τ sig) = V (main_arg7 : DevRef τ sig) := by
  after_results_simp

theorem arg8_eq (V : Valuation τ sig (Elt Ideal)) :
    after (ops (F := Ideal)) V (main_arg8 : DevRef τ sig) = V (main_arg8 : DevRef τ sig) := by
  after_results_simp

theorem arg9_eq (V : Valuation τ sig (Elt Ideal)) :
    after (ops (F := Ideal)) V (main_arg9 : DevRef τ sig) = V (main_arg9 : DevRef τ sig) := by
  after_results_simp

theorem arg10_eq (V : Valuation τ sig (Elt Ideal)) :
    after (ops (F := Ideal)) V (main_arg10 : DevRef τ sig) = V (main_arg10 : DevRef τ sig) := by
  after_results_simp

/-- Every weakly fair execution of the reference terminates with its result at refTerm of the arguments' launch contents
    and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v51)
            = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run defs _ _).mono (fun _ h c => ⟨(h c main_v51).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_fold m ρ)

end Cert.ReferenceIdeal.RefValue

end
-- ==== Proof.RefReadInt.lean ====
/-
  The integer stages of the reference, and the row lookup, read at an index.

  * Entry (r, c) of the array of row numbers minus the array of column numbers is the word of r minus the word of c;
    clipped to [-32, 32] and shifted by 32 it is the word of the natural number binNat r c, which is below 65.
  * Such a word is not negative, so the lookup's "move a negative index up by 65" keeps it; it lies between 0 and 64,
    so the lookup's range mask is 1 at every entry, and so is its fold by "and" over the unit last axis.
  * The gather of rows of a 65-row table by an index array with a unit last axis reads, at (r, c, p), the table at
    (the index read signed and clamped to [0, 64], p): here row binNat r c.
  * The table is the transposed relative-position table, so the second summand reads W_rel p (bin r c) + b_rel p.
-/
import proofs.«127354_j12618613915748_2_alg».proof.Proof.RefTerm
import proofs.«127354_j12618613915748_2_alg».proof.Proof.BinBits
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx Cert.PairSpec

/-! ## The bin as a word -/

/-- The array of row numbers: the counting vector placed on the rows and spread along the columns. -/
theorem rowNumbers_apply (r c : Fin 768) :
    broadcastInDim S768x768 ![0, 1] bcast_S768x1_S768x768_0_1 (broadcastInDim S768x1 ![0] bcast_S768_S768x1_0 (iotaInDim S768 32 0)) (ix2 r c)
      = BitVec.ofNat 32 r.val := by
  refine (broadcastInDim_apply _ _ _ (ix2 r c) (ix2 r (0 : Fin 1)) fun a => ?_).trans
    ((broadcastInDim_apply _ _ (iotaInDim S768 32 0) (ix2 r (0 : Fin 1)) (ix1 r) fun a => ?_).trans rfl)
  · match a with
    | ⟨0, _⟩ => rfl
    | ⟨1, _⟩ => rfl
  · match a with
    | ⟨0, _⟩ => rfl

/-- The array of column numbers: the counting vector placed on the columns and spread down the rows. -/
theorem colNumbers_apply (r c : Fin 768) :
    broadcastInDim S768x768 ![0, 1] bcast_S1x768_S768x768_0_1 (broadcastInDim S1x768 ![1] bcast_S768_S1x768_1 (iotaInDim S768 32 0)) (ix2 r c)
      = BitVec.ofNat 32 c.val := by
  refine (broadcastInDim_apply _ _ _ (ix2 r c) (ix2 (0 : Fin 1) c) fun a => ?_).trans
    ((broadcastInDim_apply _ _ (iotaInDim S768 32 0) (ix2 (0 : Fin 1) c) (ix1 c) fun a => ?_).trans rfl)
  · match a with
    | ⟨0, _⟩ => rfl
    | ⟨1, _⟩ => rfl
  · match a with
    | ⟨0, _⟩ => rfl

theorem posDiff_apply (r c : Fin 768) : posDiff (ix2 r c) = IntOp.subi (BitVec.ofNat 32 r.val) (BitVec.ofNat 32 c.val) := by
  unfold posDiff
  exact congrArg₂ IntOp.subi (rowNumbers_apply r c) (colNumbers_apply r c)

/-- The clipped and shifted difference is the word of the bin. -/
theorem binArr_apply (r c : Fin 768) : binArr (ix2 r c) = BitVec.ofNat 32 (binNat r.val c.val) := by
  show IntOp.addi (IntOp.minsi 32#32 (IntOp.maxsi 4294967264#32 (posDiff (ix2 r c)))) 32#32 = _
  rw [posDiff_apply]
  exact bin_word r.val c.val r.isLt c.isLt

/-! ## Words below 65 -/

theorem toInt_zero32 : (0#32 : BitVec 32).toInt = 0 := by decide
theorem toInt_sixtyfour32 : (64#32 : BitVec 32).toInt = 64 := by decide

/-- The word of a number below 65 is not negative. -/
theorem slt_zero_small (n : Nat) (hn : n < 65) : IntOp.cmpi .slt (BitVec.ofNat 32 n) 0#32 = 0#1 := by
  show BitVec.ofBool ((BitVec.ofNat 32 n).slt 0#32) = 0#1
  rw [BitVec.slt_eq_decide, toInt_ofNat32 n (by omega), toInt_zero32, decide_eq_false (by omega)]
  rfl

/-- It is at least zero … -/
theorem sge_zero_small (n : Nat) (hn : n < 65) : IntOp.cmpi .sge (BitVec.ofNat 32 n) 0#32 = 1#1 := by
  show BitVec.ofBool ((0#32 : BitVec 32).sle (BitVec.ofNat 32 n)) = 1#1
  rw [BitVec.sle_eq_decide, toInt_ofNat32 n (by omega), toInt_zero32, decide_eq_true (by omega)]
  rfl

/-- … and at most 64. -/
theorem sle_sixtyfour_small (n : Nat) (hn : n < 65) : IntOp.cmpi .sle (BitVec.ofNat 32 n) 64#32 = 1#1 := by
  show BitVec.ofBool ((BitVec.ofNat 32 n).sle 64#32) = 1#1
  rw [BitVec.sle_eq_decide, toInt_ofNat32 n (by omega), toInt_sixtyfour32, decide_eq_true (by omega)]
  rfl

/-! ## The lookup's index array and its mask -/

/-- Moving negative entries up by 65 keeps the word of the bin. -/
theorem wrapIdx_bin (r c : Fin 768) : wrapIdx binArr (ix2 r c) = BitVec.ofNat 32 (binNat r.val c.val) := by
  show Scalar.select (IntOp.cmpi .slt (binArr (ix2 r c)) 0#32) (IntOp.addi (binArr (ix2 r c)) 65#32) (binArr (ix2 r c)) = _
  rw [binArr_apply, slt_zero_small _ (binNat_lt _ _), select_zero]

/-- The array of start indices at (r, c, 0). -/
theorem startIdx_bin (r c : Fin 768) (z : Fin 1) : startIdx binArr (ix3 r c z) = BitVec.ofNat 32 (binNat r.val c.val) := by
  unfold startIdx
  refine (broadcastInDim_apply _ _ (wrapIdx binArr) (ix3 r c z) (ix2 r c) fun a => ?_).trans (wrapIdx_bin r c)
  match a with
  | ⟨0, _⟩ => rfl
  | ⟨1, _⟩ => rfl

/-- Every entry of the range mask "0 ≤ index ≤ 64" is 1. -/
theorem mask_bin (i : S768x768x1.Idx) :
    andi (cmpi .sge (startIdx binArr) (broadcastInDim S768x768x1 ![] bcast_S_S768x768x1 (constantI S_ 32 0#32)))
      (cmpi .sle (startIdx binArr) (broadcastInDim S768x768x1 ![0, 1, 2] bcast_S1x1x1_S768x768x1_0_1_2
        (broadcastInDim S1x1x1 ![2] bcast_S1_S1x1x1_2 (constantI S1 32 64#32)))) i = 1#1 := by
  obtain ⟨r, c, z, rfl⟩ : ∃ (r c : Fin 768) (z : Fin 1), i = ix3 r c z := ⟨i 0, i 1, i 2, eq_ix3 i⟩
  show IntOp.andi (IntOp.cmpi .sge (startIdx binArr (ix3 r c z)) 0#32)
    (IntOp.cmpi .sle (startIdx binArr (ix3 r c z)) 64#32) = 1#1
  rw [startIdx_bin, sge_zero_small _ (binNat_lt _ _), sle_sixtyfour_small _ (binNat_lt _ _)]
  rfl

/-- A left fold by "and" from 1 over entries that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

/-- The mask folded over the unit last axis is 1 at every pair. -/
theorem inRange_bin (j : S768x768.Idx) : inRange (startIdx binArr) j = 1#1 := by
  unfold inRange
  rw [Host.reduce_eq_foldl]
  exact foldl_andi_ones _ mask_bin _

/-! ## The gather of rows -/

/-- The gather of rows of a 65-row table by an index array with a unit last axis, read at (r, c, p): the table at the
    start index, read signed and clamped into [0, 64], and column p. -/
theorem gatherRows_apply {α : Type} (tbl : S65x128.Idx → α) (idx : IVec S768x768x1 32) (r c : Fin 768) (p : Fin 128) :
    Host.gather gather_S65x128_S768x768x1_S768x768x128_2_0_n_n_0_2_1128 tbl idx (ix3 r c p)
      = tbl (ix2 (⟨min (idx (ix3 r c (0 : Fin 1))).toInt.toNat 64, by omega⟩ : Fin 65) p) := by
  unfold Host.gather
  congr 1
  funext a
  apply Fin.ext
  match a with
  | ⟨0, _⟩ =>
    show (gather_S65x128_S768x768x1_S768x768x128_2_0_n_n_0_2_1128).start (ix3 r c p) idx 0 + (gather_S65x128_S768x768x1_S768x768x128_2_0_n_n_0_2_1128).batchCoord (ix3 r c p) 0 + (gather_S65x128_S768x768x1_S768x768x128_2_0_n_n_0_2_1128).offCoord (ix3 r c p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S65x128_S768x768x1_S768x768x128_2_0_n_n_0_2_1128).startIndexMap from List.mem_singleton.mpr rfl)]
    have hsi : (gather_S65x128_S768x768x1_S768x768x128_2_0_n_n_0_2_1128).siIdx (ix3 r c p) ⟨List.idxOf (0 : Fin 2) (gather_S65x128_S768x768x1_S768x768x128_2_0_n_n_0_2_1128).startIndexMap,
        List.idxOf_lt_length_iff.2 (List.mem_singleton.mpr rfl)⟩ = ix3 r c (0 : Fin 1) := by
      funext b
      refine Fin.ext ?_
      match b with
      | ⟨0, _⟩ => rfl
      | ⟨1, _⟩ => rfl
      | ⟨2, _⟩ => rfl
    rw [hsi]
    rfl
  | ⟨1, _⟩ =>
    show (gather_S65x128_S768x768x1_S768x768x128_2_0_n_n_0_2_1128).start (ix3 r c p) idx 1 + (gather_S65x128_S768x768x1_S768x768x128_2_0_n_n_0_2_1128).batchCoord (ix3 r c p) 1 + (gather_S65x128_S768x768x1_S768x768x128_2_0_n_n_0_2_1128).offCoord (ix3 r c p) 1 = p.val
    rw [GatherDims.batchCoord_eq_zero _ _ _ List.not_mem_nil]
    have hs : (gather_S65x128_S768x768x1_S768x768x128_2_0_n_n_0_2_1128).start (ix3 r c p) idx 1 = 0 := by
      unfold GatherDims.start
      rw [dif_neg (by decide)]
    have ho : (gather_S65x128_S768x768x1_S768x768x128_2_0_n_n_0_2_1128).offCoord (ix3 r c p) 1 = p.val := by
      unfold GatherDims.offCoord
      rw [dif_pos (by decide)]
      rfl
    rw [hs, ho]
    omega

/-- The lookup at the bin array: row bin r c of the table. -/
theorem takeArr_bin (tbl : FVec Ideal S65x128 .f32) (r c : Fin 768) (p : Fin 128) :
    takeArr tbl binArr (ix3 r c p) = tbl (ix2 (bin r c) p) := by
  unfold takeArr
  rw [select_apply]
  have hM : broadcastInDim S768x768x128 ![0, 1] bcast_S768x768_S768x768x128_0_1 (inRange (startIdx binArr)) (ix3 r c p) = 1#1 :=
    inRange_bin _
  rw [hM, select_one, gatherRows_apply]
  refine congrArg tbl ?_
  funext a
  apply Fin.ext
  match a with
  | ⟨0, _⟩ =>
    show min (startIdx binArr (ix3 r c (0 : Fin 1))).toInt.toNat 64 = binNat r.val c.val
    have := binNat_lt r.val c.val
    rw [startIdx_bin, toInt_ofNat32 _ (by omega), Int.toNat_natCast]
    omega
  | ⟨1, _⟩ => rfl

/-! ## The second summand -/

/-- A vector of 128 channel entries spread over [1, 1, 128] and then over all pairs reads the channel's entry. -/
theorem biasPairs_apply (b : FVec Ideal S128 .f32) (r c : Fin 768) (p : Fin 128) :
    broadcastInDim S768x768x128 ![0, 1, 2] bcast_S1x1x128_S768x768x128_0_1_2 (broadcastInDim S1x1x128 ![2] bcast_S128_S1x1x128_2 b) (ix3 r c p)
      = b (ix1 p) := by
  refine (broadcastInDim_apply _ _ _ (ix3 r c p) (ix3 (0 : Fin 1) (0 : Fin 1) p) fun a => ?_).trans
    (broadcastInDim_apply _ _ b (ix3 (0 : Fin 1) (0 : Fin 1) p) (ix1 p) fun a => ?_)
  · match a with
    | ⟨0, _⟩ => rfl
    | ⟨1, _⟩ => rfl
    | ⟨2, _⟩ => rfl
  · match a with
    | ⟨0, _⟩ => rfl

/-- Row bin r c of the transposed table is column bin r c of the table. -/
theorem relArr_apply (Wrel : FVec Ideal S128x65 .f32) (brel : FVec Ideal S128 .f32) (r c : Fin 768) (p : Fin 128) :
    relArr Wrel brel (ix3 r c p) = Wrel (ix2 p (bin r c)) + brel (ix1 p) := by
  unfold relArr
  rw [addf_apply, takeArr_bin, biasPairs_apply]
  refine congrArg (· + brel (ix1 p)) ?_
  refine transpose_apply [1, 0] Wrel transposes_S128x65_S65x128_1_0 (ix2 (bin r c) p) (ix2 p (bin r c)) fun b => ?_
  match b with
  | ⟨0, _⟩ => rfl
  | ⟨1, _⟩ => rfl

end Cert.ReferenceIdeal.RefValue

end
-- ==== Proof.RefReadFloat.lean ====
/-
  The float stages of the reference read at an index, on the extended reals.

  * A bias vector spread over the positions reads the channel's entry.
  * The product of the features [1, 768, 384] with a weight matrix [128, 384], both contracted on their last axis,
    reads at (n, p) the sum over the 384 features k of s[n, k] · W[p, k]; with the bias this is the projection of the
    specification.
  * Spreading the projection of the row position along the columns, and that of the column position along the rows,
    the sum over all pairs reads P_i r p + P_j c p.
  * The coordinate differences of the translations read tr[r, k] - tr[c, k]; the host sum of their squares over the
    three coordinates, taken from the zero word, is the plain sum of the three squares; the distance is the square root
    of the small constant plus that sum.
-/
import proofs.«127354_j12618613915748_2_alg».proof.Proof.RefTerm
import proofs.«127354_j12618613915748_2_alg».proof.Proof.Spec
import Idealize.ShloMosaic.PureOps.Ideal.Laws
import Idealize.ShloMosaic.Lib.ValueIdx
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx Cert.PairSpec

/-- A vector of 128 channel entries spread over [1, 1, 128] and then over [1, 768, 128] reads the channel's entry. -/
theorem biasRows_apply (b : FVec Ideal S128 .f32) (u : Fin 1) (n : Fin 768) (p : Fin 128) :
    broadcastInDim S1x768x128 ![0, 1, 2] bcast_S1x1x128_S1x768x128_0_1_2 (broadcastInDim S1x1x128 ![2] bcast_S128_S1x1x128_2 b) (ix3 u n p)
      = b (ix1 p) := by
  refine (broadcastInDim_apply _ _ _ (ix3 u n p) (ix3 (0 : Fin 1) (0 : Fin 1) p) fun a => ?_).trans
    (broadcastInDim_apply _ _ b (ix3 (0 : Fin 1) (0 : Fin 1) p) (ix1 p) fun a => ?_)
  · match a with
    | ⟨0, _⟩ => rfl
    | ⟨1, _⟩ => rfl
    | ⟨2, _⟩ => rfl
  · match a with
    | ⟨0, _⟩ => rfl

/-- The product of the features with a weight matrix, both contracted on their last axis, read at (n, p). -/
theorem dot_apply (s : FVec Ideal S1x768x384 .f32) (W : FVec Ideal S128x384 .f32) (u : Fin 1) (n : Fin 768) (p : Fin 128) :
    Host.dotGeneral dot_S1x768x384_S128x384_S1x768x128_2_1_01_0_n_n none s W (ix3 u n p) = ∑ k : Fin 384, s (ix3 (0 : Fin 1) n k) * W (ix2 p k) := by
  obtain rfl : u = 0 := Subsingleton.elim _ _
  show FloatOps.dotGeneral dot_S1x768x384_S128x384_S1x768x128_2_1_01_0_n_n none .single s W (ix3 (0 : Fin 1) n p) = _
  rw [Ideal.dotGeneral_apply, ← Equiv.sum_comp (contrEquiv1 dot_S1x768x384_S128x384_S1x768x128_2_1_01_0_n_n 384 rfl rfl).symm]
  refine Finset.sum_congr rfl fun k _ => ?_
  have hk := contrEquiv1_symm_val dot_S1x768x384_S128x384_S1x768x128_2_1_01_0_n_n 384 rfl rfl k
  have hl : (dot_S1x768x384_S128x384_S1x768x128_2_1_01_0_n_n).lhsIdx (ix3 (0 : Fin 1) n p) ((contrEquiv1 dot_S1x768x384_S128x384_S1x768x128_2_1_01_0_n_n 384 rfl rfl).symm k) = ix3 (0 : Fin 1) n k := by
    funext a
    apply Fin.ext
    match a with
    | ⟨0, _⟩ => rfl
    | ⟨1, _⟩ => rfl
    | ⟨2, _⟩ => exact ((dot_S1x768x384_S128x384_S1x768x128_2_1_01_0_n_n).lhsIdx_val_of_single rfl _ _).trans hk
  have hr : (dot_S1x768x384_S128x384_S1x768x128_2_1_01_0_n_n).rhsIdx (ix3 (0 : Fin 1) n p) ((contrEquiv1 dot_S1x768x384_S128x384_S1x768x128_2_1_01_0_n_n 384 rfl rfl).symm k) = ix2 p k := by
    funext a
    apply Fin.ext
    match a with
    | ⟨0, _⟩ => rfl
    | ⟨1, _⟩ => exact ((dot_S1x768x384_S128x384_S1x768x128_2_1_01_0_n_n).rhsIdx_val_of_single rfl _ _).trans hk
  rw [hl, hr]

/-- The projection array is the specification's projection. -/
theorem projArr_apply (s : FVec Ideal S1x768x384 .f32) (W : FVec Ideal S128x384 .f32) (b : FVec Ideal S128 .f32)
    (u : Fin 1) (n : Fin 768) (p : Fin 128) : projArr s W b (ix3 u n p) = proj s W b n p := by
  unfold projArr proj
  rw [addf_apply, dot_apply, biasRows_apply]

/-- The projection of the row position spread along the columns. -/
theorem rowSpread_apply (x : FVec Ideal S1x768x128 .f32) (u : Fin 1) (r c : Fin 768) (p : Fin 128) :
    broadcastInDim S1x768x768x128 ![0, 1, 2, 3] bcast_S1x768x1x128_S1x768x768x128_0_1_2_3
      (broadcastInDim S1x768x1x128 ![0, 1, 3] bcast_S1x768x128_S1x768x1x128_0_1_3 x) (ix4 u r c p) = x (ix3 u r p) := by
  refine (broadcastInDim_apply _ _ _ (ix4 u r c p) (ix4 u r (0 : Fin 1) p) fun a => ?_).trans
    (broadcastInDim_apply _ _ x (ix4 u r (0 : Fin 1) p) (ix3 u r p) fun a => ?_)
  · match a with
    | ⟨0, _⟩ => exact (by have := u.isLt; show u.val = 0; omega)
    | ⟨1, _⟩ => rfl
    | ⟨2, _⟩ => rfl
    | ⟨3, _⟩ => rfl
  · match a with
    | ⟨0, _⟩ => exact (by have := u.isLt; show u.val = 0; omega)
    | ⟨1, _⟩ => rfl
    | ⟨2, _⟩ => rfl

/-- The projection of the column position spread down the rows. -/
theorem colSpread_apply (x : FVec Ideal S1x768x128 .f32) (u : Fin 1) (r c : Fin 768) (p : Fin 128) :
    broadcastInDim S1x768x768x128 ![0, 1, 2, 3] bcast_S1x1x768x128_S1x768x768x128_0_1_2_3
      (broadcastInDim S1x1x768x128 ![0, 2, 3] bcast_S1x768x128_S1x1x768x128_0_2_3 x) (ix4 u r c p) = x (ix3 u c p) := by
  refine (broadcastInDim_apply _ _ _ (ix4 u r c p) (ix4 u (0 : Fin 1) c p) fun a => ?_).trans
    (broadcastInDim_apply _ _ x (ix4 u (0 : Fin 1) c p) (ix3 u c p) fun a => ?_)
  · match a with
    | ⟨0, _⟩ => exact (by have := u.isLt; show u.val = 0; omega)
    | ⟨1, _⟩ => rfl
    | ⟨2, _⟩ => rfl
    | ⟨3, _⟩ => rfl
  · match a with
    | ⟨0, _⟩ => exact (by have := u.isLt; show u.val = 0; omega)
    | ⟨1, _⟩ => rfl
    | ⟨2, _⟩ => rfl

/-- The first summand over all pairs. -/
theorem pairArr_apply (s : FVec Ideal S1x768x384 .f32) (Wi : FVec Ideal S128x384 .f32) (bi : FVec Ideal S128 .f32)
    (Wj : FVec Ideal S128x384 .f32) (bj : FVec Ideal S128 .f32) (u : Fin 1) (r c : Fin 768) (p : Fin 128) :
    pairArr s Wi bi Wj bj (ix4 u r c p) = proj s Wi bi r p + proj s Wj bj c p := by
  unfold pairArr
  rw [addf_apply, rowSpread_apply, colSpread_apply, projArr_apply, projArr_apply]

/-- The translations of the row position spread along the columns. -/
theorem trRow_apply (tr : FVec Ideal S1x768x3 .f32) (u : Fin 1) (r c : Fin 768) (k : Fin 3) :
    broadcastInDim S1x768x768x3 ![0, 1, 2, 3] bcast_S1x768x1x3_S1x768x768x3_0_1_2_3
      (broadcastInDim S1x768x1x3 ![0, 1, 3] bcast_S1x768x3_S1x768x1x3_0_1_3 tr) (ix4 u r c k) = tr (ix3 (0 : Fin 1) r k) := by
  obtain rfl : u = 0 := Subsingleton.elim _ _
  refine (broadcastInDim_apply _ _ _ (ix4 (0 : Fin 1) r c k) (ix4 (0 : Fin 1) r (0 : Fin 1) k) fun a => ?_).trans
    (broadcastInDim_apply _ _ tr (ix4 (0 : Fin 1) r (0 : Fin 1) k) (ix3 (0 : Fin 1) r k) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The translations of the column position spread down the rows. -/
theorem trCol_apply (tr : FVec Ideal S1x768x3 .f32) (u : Fin 1) (r c : Fin 768) (k : Fin 3) :
    broadcastInDim S1x768x768x3 ![0, 1, 2, 3] bcast_S1x1x768x3_S1x768x768x3_0_1_2_3
      (broadcastInDim S1x1x768x3 ![0, 2, 3] bcast_S1x768x3_S1x1x768x3_0_2_3 tr) (ix4 u r c k) = tr (ix3 (0 : Fin 1) c k) := by
  obtain rfl : u = 0 := Subsingleton.elim _ _
  refine (broadcastInDim_apply _ _ _ (ix4 (0 : Fin 1) r c k) (ix4 (0 : Fin 1) (0 : Fin 1) c k) fun a => ?_).trans
    (broadcastInDim_apply _ _ tr (ix4 (0 : Fin 1) (0 : Fin 1) c k) (ix3 (0 : Fin 1) c k) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The coordinate differences of a pair of positions. -/
theorem diffArr_apply (tr : FVec Ideal S1x768x3 .f32) (u : Fin 1) (r c : Fin 768) (k : Fin 3) :
    diffArr tr (ix4 u r c k) = tr (ix3 (0 : Fin 1) r k) - tr (ix3 (0 : Fin 1) c k) := by
  unfold diffArr
  rw [subf_apply, trRow_apply, trCol_apply]

/-- A pair's index with the coordinate axis put back. -/
theorem lift_coord (h : S1x768x768x3.Reduces [3] S1x768x768) (u : Fin 1) (r c : Fin 768) (k : Fin (S1x768x768x3.size 3)) :
    h.lift (ix3 u r c) k = ix4 u r c (⟨k.val, k.isLt⟩ : Fin 3) := by
  funext a
  apply Fin.ext
  match a with
  | ⟨0, _⟩ => rfl
  | ⟨1, _⟩ => rfl
  | ⟨2, _⟩ => rfl
  | ⟨3, _⟩ => rfl

/-- The host sum over the three coordinates, from the zero word, is the plain sum of the three entries. -/
theorem sumCoords_apply (x : FVec Ideal S1x768x768x3 .f32) (u : Fin 1) (r c : Fin 768) :
    Host.reduceAdd x (constant S_ .f32 0x00000000#32) reducesTo_S1x768x768x3_S1x768x768_d3 h_S_ (ix3 u r c)
      = ∑ k : Fin 3, x (ix4 u r c k) := by
  have h : S1x768x768x3.Reduces [3] S1x768x768 := by decide
  show Ideal.hostReduceAdd reducesTo_S1x768x768x3_S1x768x768_d3 x (Ideal.ofBits .f32 0x00000000#32) (ix3 u r c) = _
  rw [Ideal.hostReduceAdd_single reducesTo_S1x768x768x3_S1x768x768_d3 h x _ (ix3 u r c), Ideal.ofBits_zero_f32, zero_add]
  exact Finset.sum_congr rfl fun k _ => congrArg x (lift_coord h u r c k)

/-- The distance of a pair of positions. -/
theorem distArr_apply (tr : FVec Ideal S1x768x3 .f32) (u : Fin 1) (r c : Fin 768) :
    distArr tr (ix3 u r c) = Ideal.sqrt (Ideal.ofBits .f32 0x2EDBE6FF#32 + dist2 tr r c) := by
  unfold distArr dist2
  show Ideal.sqrt (Ideal.ofBits .f32 0x2EDBE6FF#32
    + Host.reduceAdd (mulf (diffArr tr) (diffArr tr)) (constant S_ .f32 0x00000000#32) reducesTo_S1x768x768x3_S1x768x768_d3 h_S_ (ix3 u r c)) = _
  rw [sumCoords_apply]
  refine congrArg (fun z => Ideal.sqrt (Ideal.ofBits .f32 0x2EDBE6FF#32 + z)) (Finset.sum_congr rfl fun k _ => ?_)
  rw [mulf_apply, diffArr_apply]

end Cert.ReferenceIdeal.RefValue

end
-- ==== Proof.RefValue.lean ====
/-
  The reference computes the specification.

  Read at a pair (r, c) and a channel p, the composed function of the reference's operations is the specification's
  entry: the two projections, the relative-position row plus its bias, the distance times the channel's weight (the
  weight matrix [128, 1] viewed as a vector, and both factors spread over the pairs and the channels), the last bias,
  and the pair mask spread over the channels — grouped and ordered as the specification groups and orders them. So the
  run, which ends with the result buffer at the composed function of the arguments, ends with it at the
  specification's array.
-/
import proofs.«127354_j12618613915748_2_alg».proof.Proof.RefRunVal
import proofs.«127354_j12618613915748_2_alg».proof.Proof.RefReadInt
import proofs.«127354_j12618613915748_2_alg».proof.Proof.RefReadFloat

noncomputable section

namespace Cert.ReferenceIdeal.RefValue

open Cert.ReferenceIdeal Cert.ReferenceIdeal.Gen Idealize.ShloMosaic Idealize.ShloMosaic.TcCoe Idealize.SL.Sem
  Idealize.ShloMosaic.ValueIdx Cert.PairSpec

/-- An array over [768, 768, 128] given a unit leading axis. -/
theorem leadUnit_apply (x : FVec Ideal S768x768x128 .f32) (u : Fin 1) (r c : Fin 768) (p : Fin 128) :
    broadcastInDim S1x768x768x128 ![1, 2, 3] bcast_S768x768x128_S1x768x768x128_1_2_3 x (ix4 u r c p) = x (ix3 r c p) := by
  refine broadcastInDim_apply _ _ x (ix4 u r c p) (ix3 r c p) fun a => ?_
  match a with
  | ⟨0, _⟩ => rfl
  | ⟨1, _⟩ => rfl
  | ⟨2, _⟩ => rfl

/-- An array over the pairs [1, 768, 768] spread over the 128 channels. -/
theorem overChannels_apply (x : FVec Ideal S1x768x768 .f32) (u : Fin 1) (r c : Fin 768) (p : Fin 128) :
    broadcastInDim S1x768x768x128 ![0, 1, 2, 3] bcast_S1x768x768x1_S1x768x768x128_0_1_2_3
      (broadcastInDim S1x768x768x1 ![0, 1, 2] bcast_S1x768x768_S1x768x768x1_0_1_2 x) (ix4 u r c p) = x (ix3 u r c) := by
  refine (broadcastInDim_apply _ _ _ (ix4 u r c p) (ix4 u r c (0 : Fin 1)) fun a => ?_).trans
    (broadcastInDim_apply _ _ x (ix4 u r c (0 : Fin 1)) (ix3 u r c) fun a => ?_)
  · match a with
    | ⟨0, _⟩ => exact (by have := u.isLt; show u.val = 0; omega)
    | ⟨1, _⟩ => rfl
    | ⟨2, _⟩ => rfl
    | ⟨3, _⟩ => rfl
  · match a with
    | ⟨0, _⟩ => exact (by have := u.isLt; show u.val = 0; omega)
    | ⟨1, _⟩ => rfl
    | ⟨2, _⟩ => rfl

/-- A vector of 128 channel entries spread over all pairs. -/
theorem overPairs_apply (x : FVec Ideal S128 .f32) (u : Fin 1) (r c : Fin 768) (p : Fin 128) :
    broadcastInDim S1x768x768x128 ![0, 1, 2, 3] bcast_S1x1x1x128_S1x768x768x128_0_1_2_3
      (broadcastInDim S1x1x1x128 ![3] bcast_S128_S1x1x1x128_3 x) (ix4 u r c p) = x (ix1 p) := by
  refine (broadcastInDim_apply _ _ _ (ix4 u r c p) (ix4 (0 : Fin 1) (0 : Fin 1) (0 : Fin 1) p) fun a => ?_).trans
    (broadcastInDim_apply _ _ x (ix4 (0 : Fin 1) (0 : Fin 1) (0 : Fin 1) p) (ix1 p) fun a => ?_)
  · match a with
    | ⟨0, _⟩ => rfl
    | ⟨1, _⟩ => rfl
    | ⟨2, _⟩ => rfl
    | ⟨3, _⟩ => rfl
  · match a with
    | ⟨0, _⟩ => rfl

/-- The weight matrix [128, 1] viewed as a vector of 128 entries. -/
theorem asVector_apply (Wt : FVec Ideal S128x1 .f32) (p : Fin 128) :
    shapeCast S128 Wt shapeCasts_S128x1_S128 (ix1 p) = Wt (ix2 p (0 : Fin 1)) :=
  shapeCast_apply Wt shapeCasts_S128x1_S128 (ix1 p) (ix2 p (0 : Fin 1)) (by
    rw [Shape.rowMajor_val_one, Shape.rowMajor_val_two]
    show p.val * 1 + 0 = p.val
    omega)

/-- The composed function read at a pair and a channel is the specification's entry. -/
theorem refTerm_apply (s : FVec Ideal S1x768x384 .f32) (tr : FVec Ideal S1x768x3 .f32) (pm : FVec Ideal S1x768x768 .f32) (Wi : FVec Ideal S128x384 .f32) (bi : FVec Ideal S128 .f32) (Wj : FVec Ideal S128x384 .f32) (bj : FVec Ideal S128 .f32) (Wrel : FVec Ideal S128x65 .f32) (brel : FVec Ideal S128 .f32) (Wt : FVec Ideal S128x1 .f32) (bt : FVec Ideal S128 .f32)
    (u : Fin 1) (r c : Fin 768) (p : Fin 128) :
    refTerm s tr pm Wi bi Wj bj Wrel brel Wt bt (ix4 u r c p) = entry s tr pm Wi bi Wj bj Wrel brel Wt bt r c p := by
  obtain rfl : u = 0 := Subsingleton.elim _ _
  unfold refTerm entry
  rw [mulf_apply, addf_apply, addf_apply, addf_apply, mulf_apply, pairArr_apply, leadUnit_apply, relArr_apply,
    overChannels_apply, overChannels_apply, overPairs_apply, overPairs_apply, asVector_apply, distArr_apply]

/-- The composed function is the specification's array. -/
theorem refTerm_eq_G (s : FVec Ideal S1x768x384 .f32) (tr : FVec Ideal S1x768x3 .f32) (pm : FVec Ideal S1x768x768 .f32) (Wi : FVec Ideal S128x384 .f32) (bi : FVec Ideal S128 .f32) (Wj : FVec Ideal S128x384 .f32) (bj : FVec Ideal S128 .f32) (Wrel : FVec Ideal S128x65 .f32) (brel : FVec Ideal S128 .f32) (Wt : FVec Ideal S128x1 .f32) (bt : FVec Ideal S128 .f32) :
    refTerm s tr pm Wi bi Wj bj Wrel brel Wt bt = G s tr pm Wi bi Wj bj Wrel brel Wt bt := by
  funext j
  obtain ⟨u, r, c, p, rfl⟩ : ∃ (u : Fin 1) (r c : Fin 768) (p : Fin 128), j = ix4 u r c p := ⟨j 0, j 1, j 2, j 3, eq_ix4 j⟩
  rw [G_apply]
  exact refTerm_apply s tr pm Wi bi Wj bj Wrel brel Wt bt u r c p

/-- Every weakly fair execution of the reference terminates with its result at the specification's array of the
    arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v51)
            = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run defs _ _).mono (fun _ h c => ⟨((h c).1).trans (refTerm_eq_G _ _ _ _ _ _ _ _ _ _ _), (h c).2⟩) (run_term m ρ)

end Cert.ReferenceIdeal.RefValue

end
-- ==== Proof.lean ====
/-
  The certificate's five claims for the pair-feature kernel against its reference.

  The three frames: the word-level kernel program and its idealization run to the end, without fault, leaving their
  arguments as they were (their frame certificates); the reference does too (its run, with the result dropped).
  The idealization rewrote nothing, so nothing is owed for it. The value claim: read at the extended reals, from
  memories that agree on the eleven arguments, the kernel program's result and the reference's result are one array —
  both are the specification G of the arguments (Proof/Spec.lean): the kernel's by reading the blocks its launch
  writes (Proof/KerRun.lean), the reference's by reading its operations at an index (Proof/RefValue.lean).
-/
import proofs.«127354_j12618613915748_2_alg».proof.Defs
import proofs.«127354_j12618613915748_2_alg».proof.Proof.Gen.Kernel
import proofs.«127354_j12618613915748_2_alg».proof.Proof.Gen.KernelIdeal
import proofs.«127354_j12618613915748_2_alg».proof.Proof.Gen.ReferenceIdeal
import proofs.«127354_j12618613915748_2_alg».proof.Proof.Gen.Pre_finite_inputs
import proofs.«127354_j12618613915748_2_alg».proof.Proof.KernelFrame
import proofs.«127354_j12618613915748_2_alg».proof.Proof.KernelIdealFrame
import proofs.«127354_j12618613915748_2_alg».proof.Proof.KerRun
import proofs.«127354_j12618613915748_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Both programs end with the specification of their arguments in their result, and the arguments agree. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
